-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S64x512x512 : Shape := ⟨3, ![64, 512, 512]⟩
abbrev S64x512 : Shape := ⟨2, ![64, 512]⟩
abbrev S131072 : Shape := ⟨1, ![131072]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S64x512x512 : S_.BroadcastsInDim S64x512x512 (![] : Fin 0 → Fin S64x512x512.rank)
  reducesTo_S64x512x512_S_d0_1_2 : S64x512x512.ReducesTo [0, 1, 2] S_
  bcast_S_S64x512 : S_.BroadcastsInDim S64x512 (![] : Fin 0 → Fin S64x512.rank)
  reducesTo_S64x512_S_d0_1 : S64x512.ReducesTo [0, 1] S_

variable [Facts]

def fn {F : FTy → Type} [FloatOps F] (main_arg0 : FVec F S131072x512 .f32) (main_arg1 : FVec F S64x512x512 .f32) (main_arg2 : FVec F S64x512 .f32) (main_arg3 : IVec S131072 32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S64x512x512 .f32 := Host.absf main_arg1
  let main_cst_0 : FVec F S_ .f32 := constant S_ .f32 0x7F800000#32
  let main_v5 : FVec F S64x512x512 .f32 := broadcastInDim S64x512x512 ![] bcast_S_S64x512x512 main_cst_0
  let main_v6 : IVec S64x512x512 1 := cmpf .olt main_v4 main_v5
  let main_c_1 : IVec S_ 1 := constantI S_ 1 1#1
  let main_v7 : IVec S_ 1 := (fun x v => Host.reduce IntOp.andi x v reducesTo_S64x512x512_S_d0_1_2 h_S_) main_v6 main_c_1
  let main_v8 : IVec S_ 1 := andi main_v3 main_v7
  let main_v9 : FVec F S64x512 .f32 := Host.absf main_arg2
  let main_cst_2 : FVec F S_ .f32 := constant S_ .f32 0x7F800000#32
  let main_v10 : FVec F S64x512 .f32 := broadcastInDim S64x512 ![] bcast_S_S64x512 main_cst_2
  let main_v11 : IVec S64x512 1 := cmpf .olt main_v9 main_v10
  let main_c_3 : IVec S_ 1 := constantI S_ 1 1#1
  let main_v12 : IVec S_ 1 := (fun x v => Host.reduce IntOp.andi x v reducesTo_S64x512_S_d0_1 h_S_) main_v11 main_c_3
  let main_v13 : IVec S_ 1 := andi main_v8 main_v12
  main_v13
-- ==== Kernel.lean ====
abbrev S131072x512 : Shape := ⟨2, ![131072, 512]⟩
abbrev S64x512x512 : Shape := ⟨3, ![64, 512, 512]⟩
abbrev S64x512 : Shape := ⟨2, ![64, 512]⟩
abbrev S131072 : Shape := ⟨1, ![131072]⟩
abbrev S_ : Shape := ⟨0, ![]⟩
abbrev S131072x1 : Shape := ⟨2, ![131072, 1]⟩
abbrev S64 : Shape := ⟨1, ![64]⟩
abbrev S196609x512 : Shape := ⟨2, ![196609, 512]⟩
abbrev S196608x512 : Shape := ⟨2, ![196608, 512]⟩
abbrev S64x3072x512 : Shape := ⟨3, ![64, 3072, 512]⟩
abbrev S64x1x512 : Shape := ⟨3, ![64, 1, 512]⟩
abbrev S1x3072x512 : Shape := ⟨3, ![1, 3072, 512]⟩
abbrev S1x512x512 : Shape := ⟨3, ![1, 512, 512]⟩
abbrev S1x1x512 : Shape := ⟨3, ![1, 1, 512]⟩
abbrev S3072x512 : Shape := ⟨2, ![3072, 512]⟩
abbrev S512x512 : Shape := ⟨2, ![512, 512]⟩
abbrev S512 : Shape := ⟨1, ![512]⟩
abbrev S1x512 : Shape := ⟨2, ![1, 512]⟩

abbrev nBuf : Space → Nat
  | .hbm => 98
  | .vmem => 8
  | .smem => 0
  | _ => 0

abbrev bufTy : (tb : Table) → Fin (tcTables nBuf tb) → BufTy
  | .hbm, ⟨0, _⟩ => ⟨S131072x512, .f32⟩
  | .hbm, ⟨1, _⟩ => ⟨S64x512x512, .f32⟩
  | .hbm, ⟨2, _⟩ => ⟨S64x512, .f32⟩
  | .hbm, ⟨3, _⟩ => ⟨S131072, .i32⟩
  | .hbm, ⟨4, _⟩ => ⟨S131072, .i32⟩
  | .hbm, ⟨5, _⟩ => ⟨S131072, .i32⟩
  | .hbm, ⟨6, _⟩ => ⟨S131072, .i32⟩
  | .hbm, ⟨7, _⟩ => ⟨S_, .i32⟩
  | .hbm, ⟨8, _⟩ => ⟨S131072, .i32⟩
  | .hbm, ⟨9, _⟩ => ⟨S131072, .i1⟩
  | .hbm, ⟨10, _⟩ => ⟨S_, .i32⟩
  | .hbm, ⟨11, _⟩ => ⟨S131072, .i32⟩
  | .hbm, ⟨12, _⟩ => ⟨S131072, .i32⟩
  | .hbm, ⟨13, _⟩ => ⟨S131072, .i32⟩
  | .hbm, ⟨14, _⟩ => ⟨S131072x1, .i32⟩
  | .hbm, ⟨15, _⟩ => ⟨S131072, .i32⟩
  | .hbm, ⟨16, _⟩ => ⟨S_, .i32⟩
  | .hbm, ⟨17, _⟩ => ⟨S131072, .i32⟩
  | .hbm, ⟨18, _⟩ => ⟨S_, .i32⟩
  | .hbm, ⟨19, _⟩ => ⟨S64, .i32⟩
  | .hbm, ⟨20, _⟩ => ⟨S131072x1, .i32⟩
  | .hbm, ⟨21, _⟩ => ⟨S64, .i32⟩
  | .hbm, ⟨22, _⟩ => ⟨S_, .i32⟩
  | .hbm, ⟨23, _⟩ => ⟨S_, .i32⟩
  | .hbm, ⟨24, _⟩ => ⟨S64, .i32⟩
  | .hbm, ⟨25, _⟩ => ⟨S64, .i32⟩
  | .hbm, ⟨26, _⟩ => ⟨S131072, .i32⟩
  | .hbm, ⟨27, _⟩ => ⟨S_, .i32⟩
  | .hbm, ⟨28, _⟩ => ⟨S131072, .i32⟩
  | .hbm, ⟨29, _⟩ => ⟨S131072, .i1⟩
  | .hbm, ⟨30, _⟩ => ⟨S_, .i32⟩
  | .hbm, ⟨31, _⟩ => ⟨S131072, .i32⟩
  | .hbm, ⟨32, _⟩ => ⟨S131072, .i32⟩
  | .hbm, ⟨33, _⟩ => ⟨S131072, .i32⟩
  | .hbm, ⟨34, _⟩ => ⟨S131072x1, .i32⟩
  | .hbm, ⟨35, _⟩ => ⟨S131072, .i32⟩
  | .hbm, ⟨36, _⟩ => ⟨S131072, .i32⟩
  | .hbm, ⟨37, _⟩ => ⟨S_, .i32⟩
  | .hbm, ⟨38, _⟩ => ⟨S131072, .i32⟩
  | .hbm, ⟨39, _⟩ => ⟨S131072, .i1⟩
  | .hbm, ⟨40, _⟩ => ⟨S_, .i32⟩
  | .hbm, ⟨41, _⟩ => ⟨S131072, .i32⟩
  | .hbm, ⟨42, _⟩ => ⟨S131072, .i32⟩
  | .hbm, ⟨43, _⟩ => ⟨S131072, .i32⟩
  | .hbm, ⟨44, _⟩ => ⟨S_, .i32⟩
  | .hbm, ⟨45, _⟩ => ⟨S_, .i32⟩
  | .hbm, ⟨46, _⟩ => ⟨S131072, .i32⟩
  | .hbm, ⟨47, _⟩ => ⟨S131072, .i32⟩
  | .hbm, ⟨48, _⟩ => ⟨S131072x512, .bf16⟩
  | .hbm, ⟨49, _⟩ => ⟨S_, .i32⟩
  | .hbm, ⟨50, _⟩ => ⟨S131072, .i32⟩
  | .hbm, ⟨51, _⟩ => ⟨S131072, .i1⟩
  | .hbm, ⟨52, _⟩ => ⟨S_, .i32⟩
  | .hbm, ⟨53, _⟩ => ⟨S131072, .i32⟩
  | .hbm, ⟨54, _⟩ => ⟨S131072, .i32⟩
  | .hbm, ⟨55, _⟩ => ⟨S131072, .i32⟩
  | .hbm, ⟨56, _⟩ => ⟨S131072x1, .i32⟩
  | .hbm, ⟨57, _⟩ => ⟨S131072x512, .bf16⟩
  | .hbm, ⟨58, _⟩ => ⟨S_, .bf16⟩
  | .hbm, ⟨59, _⟩ => ⟨S196609x512, .bf16⟩
  | .hbm, ⟨60, _⟩ => ⟨S_, .i32⟩
  | .hbm, ⟨61, _⟩ => ⟨S131072, .i32⟩
  | .hbm, ⟨62, _⟩ => ⟨S131072, .i1⟩
  | .hbm, ⟨63, _⟩ => ⟨S_, .i32⟩
  | .hbm, ⟨64, _⟩ => ⟨S131072, .i32⟩
  | .hbm, ⟨65, _⟩ => ⟨S131072, .i32⟩
  | .hbm, ⟨66, _⟩ => ⟨S131072, .i32⟩
  | .hbm, ⟨67, _⟩ => ⟨S131072x1, .i32⟩
  | .hbm, ⟨68, _⟩ => ⟨S196609x512, .bf16⟩
  | .hbm, ⟨69, _⟩ => ⟨S196608x512, .bf16⟩
  | .hbm, ⟨70, _⟩ => ⟨S64x3072x512, .bf16⟩
  | .hbm, ⟨71, _⟩ => ⟨S64x512x512, .bf16⟩
  | .hbm, ⟨72, _⟩ => ⟨S64x1x512, .f32⟩
  | .hbm, ⟨73, _⟩ => ⟨S64x3072x512, .f32⟩
  | .hbm, ⟨74, _⟩ => ⟨S196608x512, .f32⟩
  | .hbm, ⟨75, _⟩ => ⟨S_, .f32⟩
  | .hbm, ⟨76, _⟩ => ⟨S1x512, .f32⟩
  | .hbm, ⟨77, _⟩ => ⟨S196609x512, .f32⟩
  | .hbm, ⟨78, _⟩ => ⟨S_, .i32⟩
  | .hbm, ⟨79, _⟩ => ⟨S131072, .i32⟩
  | .hbm, ⟨80, _⟩ => ⟨S131072, .i1⟩
  | .hbm, ⟨81, _⟩ => ⟨S_, .i32⟩
  | .hbm, ⟨82, _⟩ => ⟨S131072, .i32⟩
  | .hbm, ⟨83, _⟩ => ⟨S131072, .i32⟩
  | .hbm, ⟨84, _⟩ => ⟨S131072, .i32⟩
  | .hbm, ⟨85, _⟩ => ⟨S131072x1, .i32⟩
  | .hbm, ⟨86, _⟩ => ⟨S131072x512, .f32⟩
  | .hbm, ⟨87, _⟩ => ⟨S_, .f32⟩
  | .hbm, ⟨88, _⟩ => ⟨S131072x512, .f32⟩
  | .hbm, ⟨89, _⟩ => ⟨S_, .i32⟩
  | .hbm, ⟨90, _⟩ => ⟨S131072, .i32⟩
  | .hbm, ⟨91, _⟩ => ⟨S131072, .i1⟩
  | .hbm, ⟨92, _⟩ => ⟨S_, .i32⟩
  | .hbm, ⟨93, _⟩ => ⟨S131072, .i32⟩
  | .hbm, ⟨94, _⟩ => ⟨S131072, .i32⟩
  | .hbm, ⟨95, _⟩ => ⟨S131072, .i32⟩
  | .hbm, ⟨96, _⟩ => ⟨S131072x1, .i32⟩
  | .hbm, ⟨97, _⟩ => ⟨S131072x512, .f32⟩
  | .local _ .vmem, ⟨0, _⟩ => ⟨S1x3072x512, .bf16⟩
  | .local _ .vmem, ⟨1, _⟩ => ⟨S1x3072x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x1x512, .f32⟩
  | .local _ .vmem, ⟨5, _⟩ => ⟨S1x1x512, .f32⟩
  | .local _ .vmem, ⟨6, _⟩ => ⟨S1x3072x512, .f32⟩
  | .local _ .vmem, ⟨7, _⟩ => ⟨S1x3072x512, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1_0 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_call1_call0_c : Ref sig .tc := ⟨.hbm, 22, rfl⟩
abbrev main_call1_call0_v0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_5 : Ref sig .tc := ⟨.hbm, 37, rfl⟩
abbrev main_v23 : Ref sig .tc := ⟨.hbm, 38, rfl⟩
abbrev main_v24 : Ref sig .tc := ⟨.hbm, 39, rfl⟩
abbrev main_c_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_7 : Ref sig .tc := ⟨.hbm, 44, rfl⟩
abbrev main_call2_v0 : Ref sig .tc := ⟨.hbm, 45, rfl⟩
abbrev main_call2_v1 : Ref sig .tc := ⟨.hbm, 46, rfl⟩
abbrev main_v28 : Ref sig .tc := ⟨.hbm, 47, rfl⟩
abbrev main_v29 : Ref sig .tc := ⟨.hbm, 48, rfl⟩
abbrev main_c_8 : Ref sig .tc := ⟨.hbm, 49, rfl⟩
abbrev main_v30 : Ref sig .tc := ⟨.hbm, 50, rfl⟩
abbrev main_v31 : Ref sig .tc := ⟨.hbm, 51, rfl⟩
abbrev main_c_9 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst : Ref sig .tc := ⟨.hbm, 58, rfl⟩
abbrev main_v37 : Ref sig .tc := ⟨.hbm, 59, rfl⟩
abbrev main_c_10 : Ref sig .tc := ⟨.hbm, 60, rfl⟩
abbrev main_v38 : Ref sig .tc := ⟨.hbm, 61, rfl⟩
abbrev main_v39 : Ref sig .tc := ⟨.hbm, 62, rfl⟩
abbrev main_c_11 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_12 : Ref sig .tc := ⟨.hbm, 75, rfl⟩
abbrev main_v51 : Ref sig .tc := ⟨.hbm, 76, rfl⟩
abbrev main_v52 : Ref sig .tc := ⟨.hbm, 77, rfl⟩
abbrev main_c_13 : Ref sig .tc := ⟨.hbm, 78, rfl⟩
abbrev main_v53 : Ref sig .tc := ⟨.hbm, 79, rfl⟩
abbrev main_v54 : Ref sig .tc := ⟨.hbm, 80, rfl⟩
abbrev main_c_14 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_15 : Ref sig .tc := ⟨.hbm, 87, rfl⟩
abbrev main_v60 : Ref sig .tc := ⟨.hbm, 88, rfl⟩
abbrev main_c_16 : Ref sig .tc := ⟨.hbm, 89, rfl⟩
abbrev main_v61 : Ref sig .tc := ⟨.hbm, 90, rfl⟩
abbrev main_v62 : Ref sig .tc := ⟨.hbm, 91, rfl⟩
abbrev main_c_17 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3072x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3072x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  bcast_S_S64 : S_.BroadcastsInDim S64 (![] : Fin 0 → Fin S64.rank)
  bcast_S_S_ : S_.BroadcastsInDim S_ (![] : Fin 0 → Fin S_.rank)
  reduceWindows_S64_S64_w64s1p63_0 : S64.ReduceWindows (![64] : Fin 1 → Nat) ![1] ![63] ![0] S64
  h_S_ : 0 < S_.numel
  bitsLt_bf16_f32 : FTy.bits .bf16 < FTy.bits .f32
  bcast_S_S196609x512 : S_.BroadcastsInDim S196609x512 (![] : Fin 0 → Fin S196609x512.rank)
  slices_S196609x512_S196608x512_0_0 : S196609x512.Slices ![0, 0] S196608x512
  shapeCasts_S196608x512_S64x3072x512 : S196608x512.ShapeCasts S64x3072x512
  shapeCasts_S64x512_S64x1x512 : S64x512.ShapeCasts S64x1x512
  inb_S1x3072x512_S1x3072x512_0_0_0 : ∀ a, (![0, 0, 0] : Fin 3 → Nat) a + S1x3072x512.size a ≤ S1x3072x512.size a
  h_S1x3072x512 : 0 < S1x3072x512.numel
  shapeCasts_S1x3072x512_S3072x512 : S1x3072x512.ShapeCasts S3072x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x1x512_S1x1x512_0_0_0 : ∀ a, (![0, 0, 0] : Fin 3 → Nat) a + S1x1x512.size a ≤ S1x1x512.size a
  h_S1x1x512 : 0 < S1x1x512.numel
  shapeCasts_S1x1x512_S512 : S1x1x512.ShapeCasts S512
  shapeCasts_S512_S1x512 : S512.ShapeCasts S1x512
  broadcasts_S1x512_S3072x512 : S1x512.Broadcasts S3072x512
  shapeCasts_S3072x512_S1x3072x512 : S3072x512.ShapeCasts S1x3072x512
  shapeCasts_S64x3072x512_S196608x512 : S64x3072x512.ShapeCasts S196608x512
  bcast_S_S1x512 : S_.BroadcastsInDim S1x512 (![] : Fin 0 → Fin S1x512.rank)
  concatenates_S196608x512_S1x512_S196609x512_d0 : Shape.Concatenates [S196608x512, S1x512] S196609x512 0
  bcast_S_S131072x512 : S_.BroadcastsInDim S131072x512 (![] : Fin 0 → Fin S131072x512.rank)
  gather_S131072_S131072x1_S131072_n_0_n_n_0_1_1_wf : GatherDims.WF S131072 S131072x1 S131072 [] [0] [] [0] [] 1 ![1]
  scatter_S64_S131072x1_S131072_n_0_0_1_wf : ScatterDims.WF S64 S131072x1 S131072 [] [0] [0] 1
  gather_S64_S131072x1_S131072_n_0_n_n_0_1_1_wf : GatherDims.WF S64 S131072x1 S131072 [] [0] [] [0] [] 1 ![1]
  gather_S131072x512_S131072x1_S131072x512_1_0_n_n_0_1_1512_wf : GatherDims.WF S131072x512 S131072x1 S131072x512 [1] [0] [] [0] [] 1 ![1, 512]
  scatter_S196609x512_S131072x1_S131072x512_1_0_0_1_wf : ScatterDims.WF S196609x512 S131072x1 S131072x512 [1] [0] [0] 1
  dot_S3072x512_S512x512_S3072x512_1_1_0_0_n_n_wf : DotDims.WF S3072x512 S512x512 S3072x512 [1] [1] [0] [0] [] []
  gather_S196609x512_S131072x1_S131072x512_1_0_n_n_0_1_1512_wf : GatherDims.WF S196609x512 S131072x1 S131072x512 [1] [0] [] [0] [] 1 ![1, 512]
  scatter_S131072x512_S131072x1_S131072x512_1_0_0_1_wf : ScatterDims.WF S131072x512 S131072x1 S131072x512 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3072x512.size a ≤ S64x3072x512.size a
  hwx0_0 : ∀ i : grid0.Coords, EltTy.bits .bf16 = 32 ∨ (Rect.block (s := S64x3072x512) S1x3072x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S64x512x512.size a
  hwx0_1 : ∀ i : grid0.Coords, EltTy.bits .bf16 = 32 ∨ (Rect.block (s := S64x512x512) S1x512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S64x1x512.size a
  hwx0_2 : ∀ i : grid0.Coords, EltTy.bits .f32 = 32 ∨ (Rect.block (s := S64x1x512) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x3072x512.size a ≤ S64x3072x512.size a
  hwx0_3 : ∀ i : grid0.Coords, EltTy.bits .f32 = 32 ∨ (Rect.block (s := S64x3072x512) S1x3072x512.size (cc0_transform_3 i) (hinb0_3 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S131072_S131072x1_S131072_n_0_n_n_0_1_1 : GatherDims S131072 S131072x1 S131072 where
  offsetDims := []
  collapsedSliceDims := [0]
  operandBatchingDims := []
  startIndicesBatchingDims := []
  startIndexMap := [0]
  indexVectorDim := 1
  sliceSizes := ![1]
  wf := gather_S131072_S131072x1_S131072_n_0_n_n_0_1_1_wf
def scatter_S64_S131072x1_S131072_n_0_0_1 : ScatterDims S64 S131072x1 S131072 where
  updateWindowDims := []
  insertedWindowDims := [0]
  scatterDimsToOperandDims := [0]
  indexVectorDim := 1
  wf := scatter_S64_S131072x1_S131072_n_0_0_1_wf
def gather_S64_S131072x1_S131072_n_0_n_n_0_1_1 : GatherDims S64 S131072x1 S131072 where
  offsetDims := []
  collapsedSliceDims := [0]
  operandBatchingDims := []
  startIndicesBatchingDims := []
  startIndexMap := [0]
  indexVectorDim := 1
  sliceSizes := ![1]
  wf := gather_S64_S131072x1_S131072_n_0_n_n_0_1_1_wf
def gather_S131072x512_S131072x1_S131072x512_1_0_n_n_0_1_1512 : GatherDims S131072x512 S131072x1 S131072x512 where
  offsetDims := [1]
  collapsedSliceDims := [0]
  operandBatchingDims := []
  startIndicesBatchingDims := []
  startIndexMap := [0]
  indexVectorDim := 1
  sliceSizes := ![1, 512]
  wf := gather_S131072x512_S131072x1_S131072x512_1_0_n_n_0_1_1512_wf
def scatter_S196609x512_S131072x1_S131072x512_1_0_0_1 : ScatterDims S196609x512 S131072x1 S131072x512 where
  updateWindowDims := [1]
  insertedWindowDims := [0]
  scatterDimsToOperandDims := [0]
  indexVectorDim := 1
  wf := scatter_S196609x512_S131072x1_S131072x512_1_0_0_1_wf
def dot_S3072x512_S512x512_S3072x512_1_1_0_0_n_n : DotDims S3072x512 S512x512 S3072x512 where
  lhsContracting := [1]
  rhsContracting := [1]
  lhsNonContracting := [0]
  rhsNonContracting := [0]
  lhsBatch := []
  rhsBatch := []
  wf := dot_S3072x512_S512x512_S3072x512_1_1_0_0_n_n_wf
def gather_S196609x512_S131072x1_S131072x512_1_0_n_n_0_1_1512 : GatherDims S196609x512 S131072x1 S131072x512 where
  offsetDims := [1]
  collapsedSliceDims := [0]
  operandBatchingDims := []
  startIndicesBatchingDims := []
  startIndexMap := [0]
  indexVectorDim := 1
  sliceSizes := ![1, 512]
  wf := gather_S196609x512_S131072x1_S131072x512_1_0_n_n_0_1_1512_wf
def scatter_S131072x512_S131072x1_S131072x512_1_0_0_1 : ScatterDims S131072x512 S131072x1 S131072x512 where
  updateWindowDims := [1]
  insertedWindowDims := [0]
  scatterDimsToOperandDims := [0]
  indexVectorDim := 1
  wf := scatter_S131072x512_S131072x1_S131072x512_1_0_0_1_wf

abbrev win0_0 : Pipeline.Window sig grid0 :=
  Pipeline.Window.ofSpec (Memref.whole main_v46) S1x3072x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v47) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v48) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v49) S1x3072x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S131072x512 : Shape := ⟨2, ![131072, 512]⟩
abbrev S64x512x512 : Shape := ⟨3, ![64, 512, 512]⟩
abbrev S64x512 : Shape := ⟨2, ![64, 512]⟩
abbrev S131072 : Shape := ⟨1, ![131072]⟩
abbrev S_ : Shape := ⟨0, ![]⟩
abbrev S131072x1 : Shape := ⟨2, ![131072, 1]⟩
abbrev S64 : Shape := ⟨1, ![64]⟩
abbrev S196609x512 : Shape := ⟨2, ![196609, 512]⟩
abbrev S196608x512 : Shape := ⟨2, ![196608, 512]⟩
abbrev S64x3072x512 : Shape := ⟨3, ![64, 3072, 512]⟩
abbrev S64x1x512 : Shape := ⟨3, ![64, 1, 512]⟩
abbrev S1x512 : Shape := ⟨2, ![1, 512]⟩

abbrev nBuf : Space → Nat
  | .hbm => 98
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S64x512x512, .f32⟩
  | .hbm, ⟨2, _⟩ => ⟨S64x512, .f32⟩
  | .hbm, ⟨3, _⟩ => ⟨S131072, .i32⟩
  | .hbm, ⟨4, _⟩ => ⟨S131072, .i32⟩
  | .hbm, ⟨5, _⟩ => ⟨S131072, .i32⟩
  | .hbm, ⟨6, _⟩ => ⟨S131072, .i32⟩
  | .hbm, ⟨7, _⟩ => ⟨S_, .i32⟩
  | .hbm, ⟨8, _⟩ => ⟨S131072, .i32⟩
  | .hbm, ⟨9, _⟩ => ⟨S131072, .i1⟩
  | .hbm, ⟨10, _⟩ => ⟨S_, .i32⟩
  | .hbm, ⟨11, _⟩ => ⟨S131072, .i32⟩
  | .hbm, ⟨12, _⟩ => ⟨S131072, .i32⟩
  | .hbm, ⟨13, _⟩ => ⟨S131072, .i32⟩
  | .hbm, ⟨14, _⟩ => ⟨S131072x1, .i32⟩
  | .hbm, ⟨15, _⟩ => ⟨S131072, .i32⟩
  | .hbm, ⟨16, _⟩ => ⟨S_, .i32⟩
  | .hbm, ⟨17, _⟩ => ⟨S131072, .i32⟩
  | .hbm, ⟨18, _⟩ => ⟨S_, .i32⟩
  | .hbm, ⟨19, _⟩ => ⟨S64, .i32⟩
  | .hbm, ⟨20, _⟩ => ⟨S131072x1, .i32⟩
  | .hbm, ⟨21, _⟩ => ⟨S64, .i32⟩
  | .hbm, ⟨22, _⟩ => ⟨S_, .i32⟩
  | .hbm, ⟨23, _⟩ => ⟨S_, .i32⟩
  | .hbm, ⟨24, _⟩ => ⟨S64, .i32⟩
  | .hbm, ⟨25, _⟩ => ⟨S64, .i32⟩
  | .hbm, ⟨26, _⟩ => ⟨S131072, .i32⟩
  | .hbm, ⟨27, _⟩ => ⟨S_, .i32⟩
  | .hbm, ⟨28, _⟩ => ⟨S131072, .i32⟩
  | .hbm, ⟨29, _⟩ => ⟨S131072, .i1⟩
  | .hbm, ⟨30, _⟩ => ⟨S_, .i32⟩
  | .hbm, ⟨31, _⟩ => ⟨S131072, .i32⟩
  | .hbm, ⟨32, _⟩ => ⟨S131072, .i32⟩
  | .hbm, ⟨33, _⟩ => ⟨S131072, .i32⟩
  | .hbm, ⟨34, _⟩ => ⟨S131072x1, .i32⟩
  | .hbm, ⟨35, _⟩ => ⟨S131072, .i32⟩
  | .hbm, ⟨36, _⟩ => ⟨S131072, .i32⟩
  | .hbm, ⟨37, _⟩ => ⟨S_, .i32⟩
  | .hbm, ⟨38, _⟩ => ⟨S131072, .i32⟩
  | .hbm, ⟨39, _⟩ => ⟨S131072, .i1⟩
  | .hbm, ⟨40, _⟩ => ⟨S_, .i32⟩
  | .hbm, ⟨41, _⟩ => ⟨S131072, .i32⟩
  | .hbm, ⟨42, _⟩ => ⟨S131072, .i32⟩
  | .hbm, ⟨43, _⟩ => ⟨S131072, .i32⟩
  | .hbm, ⟨44, _⟩ => ⟨S_, .i32⟩
  | .hbm, ⟨45, _⟩ => ⟨S_, .i32⟩
  | .hbm, ⟨46, _⟩ => ⟨S131072, .i32⟩
  | .hbm, ⟨47, _⟩ => ⟨S131072, .i32⟩
  | .hbm, ⟨48, _⟩ => ⟨S_, .f32⟩
  | .hbm, ⟨49, _⟩ => ⟨S196609x512, .f32⟩
  | .hbm, ⟨50, _⟩ => ⟨S_, .i32⟩
  | .hbm, ⟨51, _⟩ => ⟨S131072, .i32⟩
  | .hbm, ⟨52, _⟩ => ⟨S131072, .i1⟩
  | .hbm, ⟨53, _⟩ => ⟨S_, .i32⟩
  | .hbm, ⟨54, _⟩ => ⟨S131072, .i32⟩
  | .hbm, ⟨55, _⟩ => ⟨S131072, .i32⟩
  | .hbm, ⟨56, _⟩ => ⟨S131072, .i32⟩
  | .hbm, ⟨57, _⟩ => ⟨S131072x1, .i32⟩
  | .hbm, ⟨58, _⟩ => ⟨S131072x512, .f32⟩
  | .hbm, ⟨59, _⟩ => ⟨S_, .i32⟩
  | .hbm, ⟨60, _⟩ => ⟨S131072, .i32⟩
  | .hbm, ⟨61, _⟩ => ⟨S131072, .i1⟩
  | .hbm, ⟨62, _⟩ => ⟨S_, .i32⟩
  | .hbm, ⟨63, _⟩ => ⟨S131072, .i32⟩
  | .hbm, ⟨64, _⟩ => ⟨S131072, .i32⟩
  | .hbm, ⟨65, _⟩ => ⟨S131072, .i32⟩
  | .hbm, ⟨66, _⟩ => ⟨S131072x1, .i32⟩
  | .hbm, ⟨67, _⟩ => ⟨S196609x512, .f32⟩
  | .hbm, ⟨68, _⟩ => ⟨S196608x512, .f32⟩
  | .hbm, ⟨69, _⟩ => ⟨S64x3072x512, .f32⟩
  | .hbm, ⟨70, _⟩ => ⟨S64x3072x512, .f32⟩
  | .hbm, ⟨71, _⟩ => ⟨S64x1x512, .f32⟩
  | .hbm, ⟨72, _⟩ => ⟨S64x3072x512, .f32⟩
  | .hbm, ⟨73, _⟩ => ⟨S64x3072x512, .f32⟩
  | .hbm, ⟨74, _⟩ => ⟨S196608x512, .f32⟩
  | .hbm, ⟨75, _⟩ => ⟨S_, .f32⟩
  | .hbm, ⟨76, _⟩ => ⟨S1x512, .f32⟩
  | .hbm, ⟨77, _⟩ => ⟨S196609x512, .f32⟩
  | .hbm, ⟨78, _⟩ => ⟨S_, .i32⟩
  | .hbm, ⟨79, _⟩ => ⟨S131072, .i32⟩
  | .hbm, ⟨80, _⟩ => ⟨S131072, .i1⟩
  | .hbm, ⟨81, _⟩ => ⟨S_, .i32⟩
  | .hbm, ⟨82, _⟩ => ⟨S131072, .i32⟩
  | .hbm, ⟨83, _⟩ => ⟨S131072, .i32⟩
  | .hbm, ⟨84, _⟩ => ⟨S131072, .i32⟩
  | .hbm, ⟨85, _⟩ => ⟨S131072x1, .i32⟩
  | .hbm, ⟨86, _⟩ => ⟨S131072x512, .f32⟩
  | .hbm, ⟨87, _⟩ => ⟨S_, .f32⟩
  | .hbm, ⟨88, _⟩ => ⟨S131072x512, .f32⟩
  | .hbm, ⟨89, _⟩ => ⟨S_, .i32⟩
  | .hbm, ⟨90, _⟩ => ⟨S131072, .i32⟩
  | .hbm, ⟨91, _⟩ => ⟨S131072, .i1⟩
  | .hbm, ⟨92, _⟩ => ⟨S_, .i32⟩
  | .hbm, ⟨93, _⟩ => ⟨S131072, .i32⟩
  | .hbm, ⟨94, _⟩ => ⟨S131072, .i32⟩
  | .hbm, ⟨95, _⟩ => ⟨S131072, .i32⟩
  | .hbm, ⟨96, _⟩ => ⟨S131072x1, .i32⟩
  | .hbm, ⟨97, _⟩ => ⟨S131072x512, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1_0 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_call1_call0_c : Ref sig .tc := ⟨.hbm, 22, rfl⟩
abbrev main_call1_call0_v0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_5 : Ref sig .tc := ⟨.hbm, 37, rfl⟩
abbrev main_v23 : Ref sig .tc := ⟨.hbm, 38, rfl⟩
abbrev main_v24 : Ref sig .tc := ⟨.hbm, 39, rfl⟩
abbrev main_c_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_7 : Ref sig .tc := ⟨.hbm, 44, rfl⟩
abbrev main_call2_v0 : Ref sig .tc := ⟨.hbm, 45, rfl⟩
abbrev main_call2_v1 : Ref sig .tc := ⟨.hbm, 46, rfl⟩
abbrev main_v28 : Ref sig .tc := ⟨.hbm, 47, rfl⟩
abbrev main_cst : Ref sig .tc := ⟨.hbm, 48, rfl⟩
abbrev main_v29 : Ref sig .tc := ⟨.hbm, 49, rfl⟩
abbrev main_c_8 : Ref sig .tc := ⟨.hbm, 50, rfl⟩
abbrev main_v30 : Ref sig .tc := ⟨.hbm, 51, rfl⟩
abbrev main_v31 : Ref sig .tc := ⟨.hbm, 52, rfl⟩
abbrev main_c_9 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_10 : Ref sig .tc := ⟨.hbm, 59, rfl⟩
abbrev main_v37 : Ref sig .tc := ⟨.hbm, 60, rfl⟩
abbrev main_v38 : Ref sig .tc := ⟨.hbm, 61, rfl⟩
abbrev main_c_11 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_12 : Ref sig .tc := ⟨.hbm, 75, rfl⟩
abbrev main_v51 : Ref sig .tc := ⟨.hbm, 76, rfl⟩
abbrev main_v52 : Ref sig .tc := ⟨.hbm, 77, rfl⟩
abbrev main_c_13 : Ref sig .tc := ⟨.hbm, 78, rfl⟩
abbrev main_v53 : Ref sig .tc := ⟨.hbm, 79, rfl⟩
abbrev main_v54 : Ref sig .tc := ⟨.hbm, 80, rfl⟩
abbrev main_c_14 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_15 : Ref sig .tc := ⟨.hbm, 87, rfl⟩
abbrev main_v60 : Ref sig .tc := ⟨.hbm, 88, rfl⟩
abbrev main_c_16 : Ref sig .tc := ⟨.hbm, 89, rfl⟩
abbrev main_v61 : Ref sig .tc := ⟨.hbm, 90, rfl⟩
abbrev main_v62 : Ref sig .tc := ⟨.hbm, 91, rfl⟩
abbrev main_c_17 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩

abbrev nD : Nat := 1
abbrev τ : Topo := Topo.v7x

variable {F : FTy → Type} [FloatOps F]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  bcast_S_S64 : S_.BroadcastsInDim S64 (![] : Fin 0 → Fin S64.rank)
  bcast_S_S_ : S_.BroadcastsInDim S_ (![] : Fin 0 → Fin S_.rank)
  reduceWindows_S64_S64_w64s1p63_0 : S64.ReduceWindows (![64] : Fin 1 → Nat) ![1] ![63] ![0] S64
  h_S_ : 0 < S_.numel
  bcast_S_S196609x512 : S_.BroadcastsInDim S196609x512 (![] : Fin 0 → Fin S196609x512.rank)
  slices_S196609x512_S196608x512_0_0 : S196609x512.Slices ![0, 0] S196608x512
  shapeCasts_S196608x512_S64x3072x512 : S196608x512.ShapeCasts S64x3072x512
  bcast_S64x512_S64x1x512_0_2 : S64x512.BroadcastsInDim S64x1x512 (![0, 2] : Fin 2 → Fin S64x1x512.rank)
  bcast_S64x1x512_S64x3072x512_0_1_2 : S64x1x512.BroadcastsInDim S64x3072x512 (![0, 1, 2] : Fin 3 → Fin S64x3072x512.rank)
  shapeCasts_S64x3072x512_S196608x512 : S64x3072x512.ShapeCasts S196608x512
  bcast_S_S1x512 : S_.BroadcastsInDim S1x512 (![] : Fin 0 → Fin S1x512.rank)
  concatenates_S196608x512_S1x512_S196609x512_d0 : Shape.Concatenates [S196608x512, S1x512] S196609x512 0
  bcast_S_S131072x512 : S_.BroadcastsInDim S131072x512 (![] : Fin 0 → Fin S131072x512.rank)
  gather_S131072_S131072x1_S131072_n_0_n_n_0_1_1_wf : GatherDims.WF S131072 S131072x1 S131072 [] [0] [] [0] [] 1 ![1]
  scatter_S64_S131072x1_S131072_n_0_0_1_wf : ScatterDims.WF S64 S131072x1 S131072 [] [0] [0] 1
  gather_S64_S131072x1_S131072_n_0_n_n_0_1_1_wf : GatherDims.WF S64 S131072x1 S131072 [] [0] [] [0] [] 1 ![1]
  gather_S131072x512_S131072x1_S131072x512_1_0_n_n_0_1_1512_wf : GatherDims.WF S131072x512 S131072x1 S131072x512 [1] [0] [] [0] [] 1 ![1, 512]
  scatter_S196609x512_S131072x1_S131072x512_1_0_0_1_wf : ScatterDims.WF S196609x512 S131072x1 S131072x512 [1] [0] [0] 1
  dot_S64x3072x512_S64x512x512_S64x3072x512_2_2_1_1_0_0_wf : DotDims.WF S64x3072x512 S64x512x512 S64x3072x512 [2] [2] [1] [1] [0] [0]
  gather_S196609x512_S131072x1_S131072x512_1_0_n_n_0_1_1512_wf : GatherDims.WF S196609x512 S131072x1 S131072x512 [1] [0] [] [0] [] 1 ![1, 512]
  scatter_S131072x512_S131072x1_S131072x512_1_0_0_1_wf : ScatterDims.WF S131072x512 S131072x1 S131072x512 [1] [0] [0] 1

variable [Facts₀]

def comparator_i32_i32_d0 : BitVec 32 × BitVec 32 → BitVec 32 × BitVec 32 → BitVec 1 :=
  fun l r =>
    let v2 := IntOp.cmpi .slt l.1 r.1
    v2
def gather_S131072_S131072x1_S131072_n_0_n_n_0_1_1 : GatherDims S131072 S131072x1 S131072 where
  offsetDims := []
  collapsedSliceDims := [0]
  operandBatchingDims := []
  startIndicesBatchingDims := []
  startIndexMap := [0]
  indexVectorDim := 1
  sliceSizes := ![1]
  wf := gather_S131072_S131072x1_S131072_n_0_n_n_0_1_1_wf
def scatter_S64_S131072x1_S131072_n_0_0_1 : ScatterDims S64 S131072x1 S131072 where
  updateWindowDims := []
  insertedWindowDims := [0]
  scatterDimsToOperandDims := [0]
  indexVectorDim := 1
  wf := scatter_S64_S131072x1_S131072_n_0_0_1_wf
def gather_S64_S131072x1_S131072_n_0_n_n_0_1_1 : GatherDims S64 S131072x1 S131072 where
  offsetDims := []
  collapsedSliceDims := [0]
  operandBatchingDims := []
  startIndicesBatchingDims := []
  startIndexMap := [0]
  indexVectorDim := 1
  sliceSizes := ![1]
  wf := gather_S64_S131072x1_S131072_n_0_n_n_0_1_1_wf
def gather_S131072x512_S131072x1_S131072x512_1_0_n_n_0_1_1512 : GatherDims S131072x512 S131072x1 S131072x512 where
  offsetDims := [1]
  collapsedSliceDims := [0]
  operandBatchingDims := []
  startIndicesBatchingDims := []
  startIndexMap := [0]
  indexVectorDim := 1
  sliceSizes := ![1, 512]
  wf := gather_S131072x512_S131072x1_S131072x512_1_0_n_n_0_1_1512_wf
def scatter_S196609x512_S131072x1_S131072x512_1_0_0_1 : ScatterDims S196609x512 S131072x1 S131072x512 where
  updateWindowDims := [1]
  insertedWindowDims := [0]
  scatterDimsToOperandDims := [0]
  indexVectorDim := 1
  wf := scatter_S196609x512_S131072x1_S131072x512_1_0_0_1_wf
def dot_S64x3072x512_S64x512x512_S64x3072x512_2_2_1_1_0_0 : DotDims S64x3072x512 S64x512x512 S64x3072x512 where
  lhsContracting := [2]
  rhsContracting := [2]
  lhsNonContracting := [1]
  rhsNonContracting := [1]
  lhsBatch := [0]
  rhsBatch := [0]
  wf := dot_S64x3072x512_S64x512x512_S64x3072x512_2_2_1_1_0_0_wf
def gather_S196609x512_S131072x1_S131072x512_1_0_n_n_0_1_1512 : GatherDims S196609x512 S131072x1 S131072x512 where
  offsetDims := [1]
  collapsedSliceDims := [0]
  operandBatchingDims := []
  startIndicesBatchingDims := []
  startIndexMap := [0]
  indexVectorDim := 1
  sliceSizes := ![1, 512]
  wf := gather_S196609x512_S131072x1_S131072x512_1_0_n_n_0_1_1512_wf
def scatter_S131072x512_S131072x1_S131072x512_1_0_0_1 : ScatterDims S131072x512 S131072x1 S131072x512 where
  updateWindowDims := [1]
  insertedWindowDims := [0]
  scatterDimsToOperandDims := [0]
  indexVectorDim := 1
  wf := scatter_S131072x512_S131072x1_S131072x512_1_0_0_1_wf

class Facts : Prop extends Facts₀ where

variable [Facts]
-- ==== Proof.RefOps.lean ====
/-
  The reference's @main as eight lists of host operations, one entry per printed statement, in order, the three
  outlined functions' statements standing where they are called. A table: beside each list only that every entry names
  TensorCore buffers (read off the entry's arity); it says nothing about what the lists compute.
-/
import proofs.«123234_j84868553769176_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-- The stable argsort of the expert ids: the iota it carries along, then the sorted keys and the sorted positions. (3 operations) -/
abbrev sortOps : List (HloOp τ sig (Elt F)) :=
  [ StableHlo.TRef.nullary main_call0.v0 (iotaInDim S131072 32 0),
    StableHlo.TRef.binary (.of main_arg3 : StableHlo.TRef sig ⟨S131072, .i32⟩) main_call0.v0 main_call0.v1_0 (fun x y => (Host.sort2 S131072 0 comparator_i32_i32_d0 x y).1),
    StableHlo.TRef.binary (.of main_arg3 : StableHlo.TRef sig ⟨S131072, .i32⟩) main_call0.v0 main_call0.v1_1 (fun x y => (Host.sort2 S131072 0 comparator_i32_i32_d0 x y).2) ]
/-- Each names buffers of the TensorCore only: one lemma per entry, the one of its arity. -/
theorem sortOps_sub : (sortOps : List (HloOp τ sig (Elt F))).Forall fun op => op.bufs ⊆ StableHlo.tcRefs τ sig :=
  ⟨StableHlo.nullary_bufs_sub .., StableHlo.binary_bufs_sub .., StableHlo.binary_bufs_sub ..⟩

/-- Each sorted position's expert id (a gather through the wrapped positions), and how many tokens each expert received (ones scattered by addition at the ids). (15 operations) -/
abbrev countOps : List (HloOp τ sig (Elt F)) :=
  [ StableHlo.nullary main_c (constantI S_ 32 0#32),
    StableHlo.unary main_c main_v1 (broadcastInDim S131072 ![] bcast_S_S131072 : (⟨S_, .i32⟩ : BufTy).Contents (Elt F) → (⟨S131072, .i32⟩ : BufTy).Contents (Elt F)),
    StableHlo.binary main_v0 main_v1 main_v2 (cmpi .slt : (⟨S131072, .i32⟩ : BufTy).Contents (Elt F) → (⟨S131072, .i32⟩ : BufTy).Contents (Elt F) → (⟨S131072, .i1⟩ : BufTy).Contents (Elt F)),
    StableHlo.nullary main_c_0 (constantI S_ 32 131072#32),
    StableHlo.unary main_c_0 main_v3 (broadcastInDim S131072 ![] bcast_S_S131072 : (⟨S_, .i32⟩ : BufTy).Contents (Elt F) → (⟨S131072, .i32⟩ : BufTy).Contents (Elt F)),
    StableHlo.binary main_v0 main_v3 main_v4 (addi : (⟨S131072, .i32⟩ : BufTy).Contents (Elt F) → (⟨S131072, .i32⟩ : BufTy).Contents (Elt F) → (⟨S131072, .i32⟩ : BufTy).Contents (Elt F)),
    StableHlo.ternary main_v2 main_v4 main_v0 main_v5 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v5 main_v6 (broadcastInDim S131072x1 ![0] bcast_S131072_S131072x1_0 : (⟨S131072, .i32⟩ : BufTy).Contents (Elt F) → (⟨S131072x1, .i32⟩ : BufTy).Contents (Elt F)),
    StableHlo.binary main_arg3 main_v6 main_v7 ((fun x i => Host.gather gather_S131072_S131072x1_S131072_n_0_n_n_0_1_1 x i) : (⟨S131072, .i32⟩ : BufTy).Contents (Elt F) → (⟨S131072x1, .i32⟩ : BufTy).Contents (Elt F) → (⟨S131072, .i32⟩ : BufTy).Contents (Elt F)),
    StableHlo.nullary main_c_1 (constantI S_ 32 1#32),
    StableHlo.unary main_c_1 main_v8 (broadcastInDim S131072 ![] bcast_S_S131072 : (⟨S_, .i32⟩ : BufTy).Contents (Elt F) → (⟨S131072, .i32⟩ : BufTy).Contents (Elt F)),
    StableHlo.nullary main_c_2 (constantI S_ 32 0#32),
    StableHlo.unary main_c_2 main_v9 (broadcastInDim S64 ![] bcast_S_S64 : (⟨S_, .i32⟩ : BufTy).Contents (Elt F) → (⟨S64, .i32⟩ : BufTy).Contents (Elt F)),
    StableHlo.unary main_arg3 main_v10 (broadcastInDim S131072x1 ![0] bcast_S131072_S131072x1_0 : (⟨S131072, .i32⟩ : BufTy).Contents (Elt F) → (⟨S131072x1, .i32⟩ : BufTy).Contents (Elt F)),
    StableHlo.ternary main_v9 main_v10 main_v8 main_v11 ((fun x i u => Host.scatter scatter_S64_S131072x1_S131072_n_0_0_1 IntOp.addi x i u) : (⟨S64, .i32⟩ : BufTy).Contents (Elt F) → (⟨S131072x1, .i32⟩ : BufTy).Contents (Elt F) → (⟨S131072, .i32⟩ : BufTy).Contents (Elt F) → (⟨S64, .i32⟩ : BufTy).Contents (Elt F)) ]
/-- Each names buffers of the TensorCore only: one lemma per entry, the one of its arity. -/
theorem countOps_sub : (countOps : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.nullary_bufs_sub .., StableHlo.unary_bufs_sub .., StableHlo.unary_bufs_sub .., StableHlo.ternary_bufs_sub ..⟩

/-- The running total of the counts: a window sum of width 64 over the counts padded by 63 zeros on the left. (3 operations) -/
abbrev cumsumOps : List (HloOp τ sig (Elt F)) :=
  [ StableHlo.TRef.nullary main_call1.call0.c (constantI S_ 32 0#32),
    StableHlo.TRef.unary main_call1.call0.c main_call1.call0.v0 (broadcastInDim S_ ![] bcast_S_S_),
    StableHlo.TRef.binary (.of main_v11 : StableHlo.TRef sig ⟨S64, .i32⟩) main_call1.call0.v0 main_call1.call0.v1 (fun x v => Host.reduceWindow IntOp.addi ![64] ![1] ![63] ![0] x v reduceWindows_S64_S64_w64s1p63_0 h_S_) ]
/-- Each names buffers of the TensorCore only: one lemma per entry, the one of its arity. -/
theorem cumsumOps_sub : (cumsumOps : List (HloOp τ sig (Elt F))).Forall fun op => op.bufs ⊆ StableHlo.tcRefs τ sig :=
  ⟨StableHlo.nullary_bufs_sub .., StableHlo.unary_bufs_sub .., StableHlo.binary_bufs_sub ..⟩

/-- Where each expert's group starts (running total minus own count), each sorted token's rank inside its group, whether that rank is below the capacity 3072, and the slot id * 3072 + rank. (20 operations) -/
abbrev slotOps : List (HloOp τ sig (Elt F)) :=
  [ StableHlo.binary main_v12 main_v11 main_v13 (subi : (⟨S64, .i32⟩ : BufTy).Contents (Elt F) → (⟨S64, .i32⟩ : BufTy).Contents (Elt F) → (⟨S64, .i32⟩ : BufTy).Contents (Elt F)),
    StableHlo.nullary main_v14 (iotaInDim S131072 32 0),
    StableHlo.nullary main_c_3 (constantI S_ 32 0#32),
    StableHlo.unary main_c_3 main_v15 (broadcastInDim S131072 ![] bcast_S_S131072 : (⟨S_, .i32⟩ : BufTy).Contents (Elt F) → (⟨S131072, .i32⟩ : BufTy).Contents (Elt F)),
    StableHlo.binary main_v7 main_v15 main_v16 (cmpi .slt : (⟨S131072, .i32⟩ : BufTy).Contents (Elt F) → (⟨S131072, .i32⟩ : BufTy).Contents (Elt F) → (⟨S131072, .i1⟩ : BufTy).Contents (Elt F)),
    StableHlo.nullary main_c_4 (constantI S_ 32 64#32),
    StableHlo.unary main_c_4 main_v17 (broadcastInDim S131072 ![] bcast_S_S131072 : (⟨S_, .i32⟩ : BufTy).Contents (Elt F) → (⟨S131072, .i32⟩ : BufTy).Contents (Elt F)),
    StableHlo.binary main_v7 main_v17 main_v18 (addi : (⟨S131072, .i32⟩ : BufTy).Contents (Elt F) → (⟨S131072, .i32⟩ : BufTy).Contents (Elt F) → (⟨S131072, .i32⟩ : BufTy).Contents (Elt F)),
    StableHlo.ternary main_v16 main_v18 main_v7 main_v19 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v19 main_v20 (broadcastInDim S131072x1 ![0] bcast_S131072_S131072x1_0 : (⟨S131072, .i32⟩ : BufTy).Contents (Elt F) → (⟨S131072x1, .i32⟩ : BufTy).Contents (Elt F)),
    StableHlo.binary main_v13 main_v20 main_v21 ((fun x i => Host.gather gather_S64_S131072x1_S131072_n_0_n_n_0_1_1 x i) : (⟨S64, .i32⟩ : BufTy).Contents (Elt F) → (⟨S131072x1, .i32⟩ : BufTy).Contents (Elt F) → (⟨S131072, .i32⟩ : BufTy).Contents (Elt F)),
    StableHlo.binary main_v14 main_v21 main_v22 (subi : (⟨S131072, .i32⟩ : BufTy).Contents (Elt F) → (⟨S131072, .i32⟩ : BufTy).Contents (Elt F) → (⟨S131072, .i32⟩ : BufTy).Contents (Elt F)),
    StableHlo.nullary main_c_5 (constantI S_ 32 3072#32),
    StableHlo.unary main_c_5 main_v23 (broadcastInDim S131072 ![] bcast_S_S131072 : (⟨S_, .i32⟩ : BufTy).Contents (Elt F) → (⟨S131072, .i32⟩ : BufTy).Contents (Elt F)),
    StableHlo.binary main_v22 main_v23 main_v24 (cmpi .slt : (⟨S131072, .i32⟩ : BufTy).Contents (Elt F) → (⟨S131072, .i32⟩ : BufTy).Contents (Elt F) → (⟨S131072, .i1⟩ : BufTy).Contents (Elt F)),
    StableHlo.nullary main_c_6 (constantI S_ 32 3072#32),
    StableHlo.unary main_c_6 main_v25 (broadcastInDim S131072 ![] bcast_S_S131072 : (⟨S_, .i32⟩ : BufTy).Contents (Elt F) → (⟨S131072, .i32⟩ : BufTy).Contents (Elt F)),
    StableHlo.binary main_v7 main_v25 main_v26 (muli : (⟨S131072, .i32⟩ : BufTy).Contents (Elt F) → (⟨S131072, .i32⟩ : BufTy).Contents (Elt F) → (⟨S131072, .i32⟩ : BufTy).Contents (Elt F)),
    StableHlo.binary main_v26 main_v22 main_v27 (addi : (⟨S131072, .i32⟩ : BufTy).Contents (Elt F) → (⟨S131072, .i32⟩ : BufTy).Contents (Elt F) → (⟨S131072, .i32⟩ : BufTy).Contents (Elt F)),
    StableHlo.nullary main_c_7 (constantI S_ 32 196608#32) ]
/-- Each names buffers of the TensorCore only: one lemma per entry, the one of its arity. -/
theorem slotOps_sub : (slotOps : List (HloOp τ sig (Elt F))).Forall fun op => op.bufs ⊆ StableHlo.tcRefs τ sig :=
  ⟨StableHlo.binary_bufs_sub .., StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub ..⟩

/-- Tokens ranked past the capacity are sent to the extra slot 196608 instead. (3 operations) -/
abbrev whereOps : List (HloOp τ sig (Elt F)) :=
  [ StableHlo.TRef.unary (.of main_c_7 : StableHlo.TRef sig ⟨S_, .i32⟩) main_call2.v0 id,
    StableHlo.TRef.unary main_call2.v0 main_call2.v1 (broadcastInDim S131072 ![] bcast_S_S131072),
    StableHlo.TRef.ternary (.of main_v24 : StableHlo.TRef sig ⟨S131072, .i1⟩) (.of main_v27 : StableHlo.TRef sig ⟨S131072, .i32⟩) main_call2.v1 main_call2.v2 select ]
/-- Each names buffers of the TensorCore only: one lemma per entry, the one of its arity. -/
theorem whereOps_sub : (whereOps : List (HloOp τ sig (Elt F))).Forall fun op => op.bufs ⊆ StableHlo.tcRefs τ sig :=
  ⟨StableHlo.unary_bufs_sub .., StableHlo.unary_bufs_sub .., StableHlo.ternary_bufs_sub ..⟩

/-- The sorted tokens' rows (a gather), written into a zero array of 196609 rows at their slots (a scatter that keeps the update), the extra row dropped, the rest read as 64 buckets of 3072 rows. (22 operations) -/
abbrev bucketOps : List (HloOp τ sig (Elt F)) :=
  [ StableHlo.nullary main_cst (constant S_ .f32 0x00000000#32),
    StableHlo.unary main_cst main_v29 (broadcastInDim S196609x512 ![] bcast_S_S196609x512 : (⟨S_, .f32⟩ : BufTy).Contents (Elt F) → (⟨S196609x512, .f32⟩ : BufTy).Contents (Elt F)),
    StableHlo.nullary main_c_8 (constantI S_ 32 0#32),
    StableHlo.unary main_c_8 main_v30 (broadcastInDim S131072 ![] bcast_S_S131072 : (⟨S_, .i32⟩ : BufTy).Contents (Elt F) → (⟨S131072, .i32⟩ : BufTy).Contents (Elt F)),
    StableHlo.binary main_v0 main_v30 main_v31 (cmpi .slt : (⟨S131072, .i32⟩ : BufTy).Contents (Elt F) → (⟨S131072, .i32⟩ : BufTy).Contents (Elt F) → (⟨S131072, .i1⟩ : BufTy).Contents (Elt F)),
    StableHlo.nullary main_c_9 (constantI S_ 32 131072#32),
    StableHlo.unary main_c_9 main_v32 (broadcastInDim S131072 ![] bcast_S_S131072 : (⟨S_, .i32⟩ : BufTy).Contents (Elt F) → (⟨S131072, .i32⟩ : BufTy).Contents (Elt F)),
    StableHlo.binary main_v0 main_v32 main_v33 (addi : (⟨S131072, .i32⟩ : BufTy).Contents (Elt F) → (⟨S131072, .i32⟩ : BufTy).Contents (Elt F) → (⟨S131072, .i32⟩ : BufTy).Contents (Elt F)),
    StableHlo.ternary main_v31 main_v33 main_v0 main_v34 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v34 main_v35 (broadcastInDim S131072x1 ![0] bcast_S131072_S131072x1_0 : (⟨S131072, .i32⟩ : BufTy).Contents (Elt F) → (⟨S131072x1, .i32⟩ : BufTy).Contents (Elt F)),
    StableHlo.binary main_arg0 main_v35 main_v36 ((fun x i => Host.gather gather_S131072x512_S131072x1_S131072x512_1_0_n_n_0_1_1512 x i) : (⟨S131072x512, .f32⟩ : BufTy).Contents (Elt F) → (⟨S131072x1, .i32⟩ : BufTy).Contents (Elt F) → (⟨S131072x512, .f32⟩ : BufTy).Contents (Elt F)),
    StableHlo.nullary main_c_10 (constantI S_ 32 0#32),
    StableHlo.unary main_c_10 main_v37 (broadcastInDim S131072 ![] bcast_S_S131072 : (⟨S_, .i32⟩ : BufTy).Contents (Elt F) → (⟨S131072, .i32⟩ : BufTy).Contents (Elt F)),
    StableHlo.binary main_v28 main_v37 main_v38 (cmpi .slt : (⟨S131072, .i32⟩ : BufTy).Contents (Elt F) → (⟨S131072, .i32⟩ : BufTy).Contents (Elt F) → (⟨S131072, .i1⟩ : BufTy).Contents (Elt F)),
    StableHlo.nullary main_c_11 (constantI S_ 32 196609#32),
    StableHlo.unary main_c_11 main_v39 (broadcastInDim S131072 ![] bcast_S_S131072 : (⟨S_, .i32⟩ : BufTy).Contents (Elt F) → (⟨S131072, .i32⟩ : BufTy).Contents (Elt F)),
    StableHlo.binary main_v28 main_v39 main_v40 (addi : (⟨S131072, .i32⟩ : BufTy).Contents (Elt F) → (⟨S131072, .i32⟩ : BufTy).Contents (Elt F) → (⟨S131072, .i32⟩ : BufTy).Contents (Elt F)),
    StableHlo.ternary main_v38 main_v40 main_v28 main_v41 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v41 main_v42 (broadcastInDim S131072x1 ![0] bcast_S131072_S131072x1_0 : (⟨S131072, .i32⟩ : BufTy).Contents (Elt F) → (⟨S131072x1, .i32⟩ : BufTy).Contents (Elt F)),
    StableHlo.ternary main_v29 main_v42 main_v36 main_v43 ((fun x i u => Host.scatter scatter_S196609x512_S131072x1_S131072x512_1_0_0_1 (fun _ b => b) x i u) : (⟨S196609x512, .f32⟩ : BufTy).Contents (Elt F) → (⟨S131072x1, .i32⟩ : BufTy).Contents (Elt F) → (⟨S131072x512, .f32⟩ : BufTy).Contents (Elt F) → (⟨S196609x512, .f32⟩ : BufTy).Contents (Elt F)),
    StableHlo.unary main_v43 main_v44 ((extractStridedSlice S196608x512 ![0, 0] · slices_S196609x512_S196608x512_0_0) : (⟨S196609x512, .f32⟩ : BufTy).Contents (Elt F) → (⟨S196608x512, .f32⟩ : BufTy).Contents (Elt F)),
    StableHlo.reshape main_v44 main_v45 rfl shapeCasts_S196608x512_S64x3072x512 ]
/-- Each names buffers of the TensorCore only: one lemma per entry, the one of its arity. -/
theorem bucketOps_sub : (bucketOps : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub .., StableHlo.reshape_bufs_sub ..⟩

/-- Every expert's affine map on its bucket: the batched product contracting the feature axis, plus the bias broadcast along the rows. (4 operations) -/
abbrev linearOps : List (HloOp τ sig (Elt F)) :=
  [ StableHlo.binary main_v45 main_arg1 main_v46 ((fun l r => Host.dotGeneral dot_S64x3072x512_S64x512x512_S64x3072x512_2_2_1_1_0_0 none l r) : (⟨S64x3072x512, .f32⟩ : BufTy).Contents (Elt F) → (⟨S64x512x512, .f32⟩ : BufTy).Contents (Elt F) → (⟨S64x3072x512, .f32⟩ : BufTy).Contents (Elt F)),
    StableHlo.unary main_arg2 main_v47 (broadcastInDim S64x1x512 ![0, 2] bcast_S64x512_S64x1x512_0_2 : (⟨S64x512, .f32⟩ : BufTy).Contents (Elt F) → (⟨S64x1x512, .f32⟩ : BufTy).Contents (Elt F)),
    StableHlo.unary main_v47 main_v48 (broadcastInDim S64x3072x512 ![0, 1, 2] bcast_S64x1x512_S64x3072x512_0_1_2 : (⟨S64x1x512, .f32⟩ : BufTy).Contents (Elt F) → (⟨S64x3072x512, .f32⟩ : BufTy).Contents (Elt F)),
    StableHlo.binary main_v46 main_v48 main_v49 (addf : (⟨S64x3072x512, .f32⟩ : BufTy).Contents (Elt F) → (⟨S64x3072x512, .f32⟩ : BufTy).Contents (Elt F) → (⟨S64x3072x512, .f32⟩ : BufTy).Contents (Elt F)) ]
/-- Each names buffers of the TensorCore only: one lemma per entry, the one of its arity. -/
theorem linearOps_sub : (linearOps : List (HloOp τ sig (Elt F))).Forall fun op => op.bufs ⊆ StableHlo.tcRefs τ sig :=
  ⟨StableHlo.binary_bufs_sub .., StableHlo.unary_bufs_sub .., StableHlo.unary_bufs_sub .., StableHlo.binary_bufs_sub ..⟩

/-- The results flattened with a zero row appended for the extra slot, read back at each sorted token's slot, and written to the token's original position. (24 operations) -/
abbrev combineOps : List (HloOp τ sig (Elt F)) :=
  [ StableHlo.reshape main_v49 main_v50 rfl shapeCasts_S64x3072x512_S196608x512,
    StableHlo.nullary main_cst_12 (constant S_ .f32 0x00000000#32),
    StableHlo.unary main_cst_12 main_v51 (broadcastInDim S1x512 ![] bcast_S_S1x512 : (⟨S_, .f32⟩ : BufTy).Contents (Elt F) → (⟨S1x512, .f32⟩ : BufTy).Contents (Elt F)),
    StableHlo.binary main_v50 main_v51 main_v52 ((fun a b => concatenate S196609x512 0 [⟨S196608x512, a⟩, ⟨S1x512, b⟩] concatenates_S196608x512_S1x512_S196609x512_d0) : (⟨S196608x512, .f32⟩ : BufTy).Contents (Elt F) → (⟨S1x512, .f32⟩ : BufTy).Contents (Elt F) → (⟨S196609x512, .f32⟩ : BufTy).Contents (Elt F)),
    StableHlo.nullary main_c_13 (constantI S_ 32 0#32),
    StableHlo.unary main_c_13 main_v53 (broadcastInDim S131072 ![] bcast_S_S131072 : (⟨S_, .i32⟩ : BufTy).Contents (Elt F) → (⟨S131072, .i32⟩ : BufTy).Contents (Elt F)),
    StableHlo.binary main_v28 main_v53 main_v54 (cmpi .slt : (⟨S131072, .i32⟩ : BufTy).Contents (Elt F) → (⟨S131072, .i32⟩ : BufTy).Contents (Elt F) → (⟨S131072, .i1⟩ : BufTy).Contents (Elt F)),
    StableHlo.nullary main_c_14 (constantI S_ 32 196609#32),
    StableHlo.unary main_c_14 main_v55 (broadcastInDim S131072 ![] bcast_S_S131072 : (⟨S_, .i32⟩ : BufTy).Contents (Elt F) → (⟨S131072, .i32⟩ : BufTy).Contents (Elt F)),
    StableHlo.binary main_v28 main_v55 main_v56 (addi : (⟨S131072, .i32⟩ : BufTy).Contents (Elt F) → (⟨S131072, .i32⟩ : BufTy).Contents (Elt F) → (⟨S131072, .i32⟩ : BufTy).Contents (Elt F)),
    StableHlo.ternary main_v54 main_v56 main_v28 main_v57 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v57 main_v58 (broadcastInDim S131072x1 ![0] bcast_S131072_S131072x1_0 : (⟨S131072, .i32⟩ : BufTy).Contents (Elt F) → (⟨S131072x1, .i32⟩ : BufTy).Contents (Elt F)),
    StableHlo.binary main_v52 main_v58 main_v59 ((fun x i => Host.gather gather_S196609x512_S131072x1_S131072x512_1_0_n_n_0_1_1512 x i) : (⟨S196609x512, .f32⟩ : BufTy).Contents (Elt F) → (⟨S131072x1, .i32⟩ : BufTy).Contents (Elt F) → (⟨S131072x512, .f32⟩ : BufTy).Contents (Elt F)),
    StableHlo.nullary main_cst_15 (constant S_ .f32 0x00000000#32),
    StableHlo.unary main_cst_15 main_v60 (broadcastInDim S131072x512 ![] bcast_S_S131072x512 : (⟨S_, .f32⟩ : BufTy).Contents (Elt F) → (⟨S131072x512, .f32⟩ : BufTy).Contents (Elt F)),
    StableHlo.nullary main_c_16 (constantI S_ 32 0#32),
    StableHlo.unary main_c_16 main_v61 (broadcastInDim S131072 ![] bcast_S_S131072 : (⟨S_, .i32⟩ : BufTy).Contents (Elt F) → (⟨S131072, .i32⟩ : BufTy).Contents (Elt F)),
    StableHlo.binary main_v0 main_v61 main_v62 (cmpi .slt : (⟨S131072, .i32⟩ : BufTy).Contents (Elt F) → (⟨S131072, .i32⟩ : BufTy).Contents (Elt F) → (⟨S131072, .i1⟩ : BufTy).Contents (Elt F)),
    StableHlo.nullary main_c_17 (constantI S_ 32 131072#32),
    StableHlo.unary main_c_17 main_v63 (broadcastInDim S131072 ![] bcast_S_S131072 : (⟨S_, .i32⟩ : BufTy).Contents (Elt F) → (⟨S131072, .i32⟩ : BufTy).Contents (Elt F)),
    StableHlo.binary main_v0 main_v63 main_v64 (addi : (⟨S131072, .i32⟩ : BufTy).Contents (Elt F) → (⟨S131072, .i32⟩ : BufTy).Contents (Elt F) → (⟨S131072, .i32⟩ : BufTy).Contents (Elt F)),
    StableHlo.ternary main_v62 main_v64 main_v0 main_v65 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v65 main_v66 (broadcastInDim S131072x1 ![0] bcast_S131072_S131072x1_0 : (⟨S131072, .i32⟩ : BufTy).Contents (Elt F) → (⟨S131072x1, .i32⟩ : BufTy).Contents (Elt F)),
    StableHlo.ternary main_v60 main_v66 main_v59 main_v67 ((fun x i u => Host.scatter scatter_S131072x512_S131072x1_S131072x512_1_0_0_1 (fun _ b => b) x i u) : (⟨S131072x512, .f32⟩ : BufTy).Contents (Elt F) → (⟨S131072x1, .i32⟩ : BufTy).Contents (Elt F) → (⟨S131072x512, .f32⟩ : BufTy).Contents (Elt F) → (⟨S131072x512, .f32⟩ : BufTy).Contents (Elt F)) ]
/-- Each names buffers of the TensorCore only: one lemma per entry, the one of its arity. -/
theorem combineOps_sub : (combineOps : List (HloOp τ sig (Elt F))).Forall fun op => op.bufs ⊆ StableHlo.tcRefs τ sig :=
  ⟨StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub ..⟩

end Cert.ReferenceIdeal.RefRun

end
-- ==== Proof.RefRun.lean ====
/-
  The reference's run. Its @main is a straight line of host operations — three outlined functions (an argsort, a running
  total, a select) standing where they are called — so every weakly fair execution ends with each buffer at the value the
  operations, taken in order, compute from the launch contents. The line is cut where its mathematics changes subject:
  sorting, counting, the running total, the slots, the capacity test, the buckets, the per-expert affine map, the combine
  (the eight lists of the module imported first). Only the seventh stretch differs from what the kernel's program does
  around its region.
-/
import proofs.«123234_j84868553769176_2_alg».proof.Proof.RefOps
import proofs.«123234_j84868553769176_2_alg».proof.Proof.Gen.ReferenceIdeal
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-- No operation of a literal list allocates. -/
local macro "none_allocates" : tactic => `(tactic| (simp only [List.Forall]; repeat' constructor))

theorem sortOps_fresh : (sortOps : List (HloOp τ sig (Elt F))).Forall fun op => op.fresh = ∅ := by none_allocates
theorem countOps_fresh : (countOps : List (HloOp τ sig (Elt F))).Forall fun op => op.fresh = ∅ := by none_allocates
theorem cumsumOps_fresh : (cumsumOps : List (HloOp τ sig (Elt F))).Forall fun op => op.fresh = ∅ := by none_allocates
theorem slotOps_fresh : (slotOps : List (HloOp τ sig (Elt F))).Forall fun op => op.fresh = ∅ := by none_allocates
theorem whereOps_fresh : (whereOps : List (HloOp τ sig (Elt F))).Forall fun op => op.fresh = ∅ := by none_allocates
theorem bucketOps_fresh : (bucketOps : List (HloOp τ sig (Elt F))).Forall fun op => op.fresh = ∅ := by none_allocates
theorem linearOps_fresh : (linearOps : List (HloOp τ sig (Elt F))).Forall fun op => op.fresh = ∅ := by none_allocates
theorem combineOps_fresh : (combineOps : List (HloOp τ sig (Elt F))).Forall fun op => op.fresh = ∅ := by none_allocates

/-- The whole line. -/
abbrev ops : List (HloOp τ sig (Elt F)) :=
  sortOps ++ (countOps ++ (cumsumOps ++ (slotOps ++ (whereOps ++ (bucketOps ++ (linearOps ++ (combineOps ++ [])))))))

/-- The first sixty statements are the first six stretches, the last one in tail position. -/
theorem main_part0_chain (c : Dev nD) : main_part0 (F := F) c = (Pipeline.chainK
  [ StableHlo.seq sortOps, StableHlo.seq countOps, StableHlo.seq cumsumOps, StableHlo.seq slotOps, StableHlo.seq whereOps ]
  (StableHlo.seq bucketOps) : Prog (TpuEff nD τ sig (Elt F) (Pipeline.Sig Λ₀ (Fin 0) fun p => (pcfgs (F := F) p).Adm) .tc) PUnit) := by
  chain_rfl

/-- The remaining statements are the last two stretches. -/
theorem main_part1_chain (c : Dev nD) : main_part1 (F := F) c = (Pipeline.chain
  [ StableHlo.seq linearOps, StableHlo.seq combineOps ] : Prog (TpuEff nD τ sig (Elt F) (Pipeline.Sig Λ₀ (Fin 0) fun p => (pcfgs (F := F) p).Adm) .tc) PUnit) := by
  chain_rfl

/-- @main is the eight stretches in order. -/
theorem main_chain (c : Dev nD) : main (F := F) c = (Pipeline.chain
  [ StableHlo.seq sortOps, StableHlo.seq countOps, StableHlo.seq cumsumOps, StableHlo.seq slotOps, StableHlo.seq whereOps,
    StableHlo.seq bucketOps, StableHlo.seq linearOps, StableHlo.seq combineOps ] : Prog (TpuEff nD τ sig (Elt F) (Pipeline.Sig Λ₀ (Fin 0) fun p => (pcfgs (F := F) p).Adm) .tc) PUnit) := by
  show (main_part0 (F := F) c >>= fun _ => main_part1 (F := F) c) = _
  rewrite [main_part1_chain, main_part0_chain, Pipeline.chainK_bind_chain]
  chain_rfl

/-- Stretches run one after the other are their concatenation run as one line. -/
theorem main_eq (c : Dev nD) : main (F := F) c = StableHlo.seq ops := by
  rw [main_chain]
  simp only [Pipeline.chain_cons, Pipeline.chain_nil, StableHlo.seq_append]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ StableHlo.tcRefs τ sig := by
  simp only [List.forall_append]
  exact ⟨sortOps_sub, countOps_sub, cumsumOps_sub, slotOps_sub, whereOps_sub, bucketOps_sub, linearOps_sub, combineOps_sub, trivial⟩

theorem ops_fresh : (ops : List (HloOp τ sig (Elt F))).Forall fun op => op.fresh = ∅ := by
  simp only [List.forall_append]
  exact ⟨sortOps_fresh, countOps_fresh, cumsumOps_fresh, slotOps_fresh, whereOps_fresh, bucketOps_fresh, linearOps_fresh, combineOps_fresh, trivial⟩

/-- From any memory with zero counters, every weakly fair execution of the reference's @main terminates, and every final
    state has each buffer at the line's fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = StableHlo.after ops (StableHlo.launchContents m c) (Proc.devRef .tc b) :=
  StableHlo.run_seq scopedRefs_eq scopedSems_eq defs main (fun _ => ops) main_eq (fun _ => ops_sub) m ρ
    (fun _ => List.forall_iff_forall_mem.mp ops_fresh)

end Cert.ReferenceIdeal.RefRun

end
-- ==== Proof.Route.lean ====
/-
  The routing and the combine that BOTH programs perform, named once.

  From the experts' ids of the 131072 tokens: `order` is the stable argsort (position `p` holds the token that comes
  `p`-th when tokens are sorted by expert); `sortedIds` the ids in that order; `counts` how many tokens each of the 64
  experts received; `starts` where each expert's group begins in the sorted order (the running total of the counts minus
  the expert's own count); `rank` a sorted token's place inside its group; `slot` the row it is given among the
  64 · 3072 bucket rows — `id · 3072 + rank` when the rank is below the capacity 3072, and the extra row 196608
  otherwise. `buckets` writes the sorted tokens' rows into a zero array at their slots, drops the extra row and reads the
  rest as 64 buckets of 3072 rows; `combine` appends a zero row to the experts' flattened results, reads them back at
  each sorted token's slot, and writes each to its token's original position.

  None of these is ever opened by the proof: the two programs apply the same functions, so it suffices that the
  values they are applied to agree.
-/
import proofs.«123234_j84868553769176_2_alg».proof.Proof.Gen.KernelIdeal

noncomputable section

namespace Cert.KernelIdeal.Route

open Cert.KernelIdeal Cert.KernelIdeal.Gen Idealize.ShloMosaic Idealize.SL.Sem

variable {F : FTy → Type} [FloatOps F]

/-- An array of indices into an axis of extent `n`, as jnp reads it: a negative entry counts from the end (`+ n`); the
    result carries the trailing unit axis a gather or scatter takes its index vectors along. -/
def wrapIdx (n : BitVec 32) (x : IVec S131072 32) : IVec S131072x1 32 :=
  broadcastInDim S131072x1 ![0] bcast_S131072_S131072x1_0
    (select (cmpi .slt x (broadcastInDim S131072 ![] bcast_S_S131072 (constantI S_ 32 0#32)))
      (addi x (broadcastInDim S131072 ![] bcast_S_S131072 (constantI S_ 32 n))) x)

/-- The stable argsort of the ids: the positions carried along by the sort of the ids. -/
def order (ids : IVec S131072 32) : IVec S131072 32 :=
  (Host.sort2 S131072 0 comparator_i32_i32_d0 ids (iotaInDim S131072 32 0)).2

/-- The ids in sorted order. -/
def sortedIds (ids : IVec S131072 32) : IVec S131072 32 :=
  Host.gather gather_S131072_S131072x1_S131072_n_0_n_n_0_1_1 ids (wrapIdx 131072#32 (order ids))

/-- How many tokens each expert received: a one added at each token's id. -/
def counts (ids : IVec S131072 32) : IVec S64 32 :=
  Host.scatter scatter_S64_S131072x1_S131072_n_0_0_1 IntOp.addi (broadcastInDim S64 ![] bcast_S_S64 (constantI S_ 32 0#32))
    (broadcastInDim S131072x1 ![0] bcast_S131072_S131072x1_0 ids) (broadcastInDim S131072 ![] bcast_S_S131072 (constantI S_ 32 1#32))

/-- Where each expert's group starts in the sorted order: the running total of the counts, less the expert's own. -/
def starts (ids : IVec S131072 32) : IVec S64 32 :=
  subi (Host.reduceWindow IntOp.addi ![64] ![1] ![63] ![0] (counts ids) (broadcastInDim S_ ![] bcast_S_S_ (constantI S_ 32 0#32))
      reduceWindows_S64_S64_w64s1p63_0 h_S_) (counts ids)

/-- A sorted token's place inside its expert's group. -/
def rank (ids : IVec S131072 32) : IVec S131072 32 :=
  subi (iotaInDim S131072 32 0) (Host.gather gather_S64_S131072x1_S131072_n_0_n_n_0_1_1 (starts ids) (wrapIdx 64#32 (sortedIds ids)))

/-- The bucket row a sorted token is given: `id · 3072 + rank` below the capacity, the extra row 196608 past it. -/
def slot (ids : IVec S131072 32) : IVec S131072 32 :=
  select (cmpi .slt (rank ids) (broadcastInDim S131072 ![] bcast_S_S131072 (constantI S_ 32 3072#32)))
    (addi (muli (sortedIds ids) (broadcastInDim S131072 ![] bcast_S_S131072 (constantI S_ 32 3072#32))) (rank ids))
    (broadcastInDim S131072 ![] bcast_S_S131072 (id (constantI S_ 32 196608#32)))

/-- The tokens' rows `x`, taken in sorted order, written at their slots into an array of 196609 rows filled with `z`; the
    extra row dropped; the rest as 64 buckets of 3072 rows. -/
def buckets {φ : FTy} (x : FVec F S131072x512 φ) (z : FVec F S_ φ) (slotA orderA : IVec S131072 32) : FVec F S64x3072x512 φ :=
  shapeCast S64x3072x512
    (extractStridedSlice S196608x512 ![0, 0]
      (Host.scatter scatter_S196609x512_S131072x1_S131072x512_1_0_0_1 (fun _ b => b) (broadcastInDim S196609x512 ![] bcast_S_S196609x512 z)
        (wrapIdx 196609#32 slotA)
        (Host.gather gather_S131072x512_S131072x1_S131072x512_1_0_n_n_0_1_1512 x (wrapIdx 131072#32 orderA)))
      slices_S196609x512_S196608x512_0_0)
    shapeCasts_S196608x512_S64x3072x512

/-- The experts' results `y`, flattened, a zero row appended for the extra slot, read back at each sorted token's slot,
    each written to its token's original position in a zero array. -/
def combine (y : FVec F S64x3072x512 .f32) (slotA orderA : IVec S131072 32) : FVec F S131072x512 .f32 :=
  Host.scatter scatter_S131072x512_S131072x1_S131072x512_1_0_0_1 (fun _ b => b)
    (broadcastInDim S131072x512 ![] bcast_S_S131072x512 (constant S_ .f32 0x00000000#32))
    (wrapIdx 131072#32 orderA)
    (Host.gather gather_S196609x512_S131072x1_S131072x512_1_0_n_n_0_1_1512
      (concatenate S196609x512 0 [⟨S196608x512, shapeCast S196608x512 y shapeCasts_S64x3072x512_S196608x512⟩,
          ⟨S1x512, broadcastInDim S1x512 ![] bcast_S_S1x512 (constant S_ .f32 0x00000000#32)⟩] concatenates_S196608x512_S1x512_S196609x512_d0)
      (wrapIdx 196609#32 slotA))

end Cert.KernelIdeal.Route

end
-- ==== Proof.RefRead.lean ====
/-
  The reference's line read as values, stretch by stretch.

  The first six stretches leave, in the buffers the later ones read, the same named functions of the arguments as the
  kernel's program computes before its region: the sorted positions, the slots, and the buckets of the token rows (here
  of the tokens as given, over a zero of the wide format). The seventh stretch is the per-expert affine map as the
  reference spells it: one batched product contracting the feature axis, plus the biases broadcast along the rows. The
  eighth is `combine`. The arguments are written by no operation.
-/
import proofs.«123234_j84868553769176_2_alg».proof.Proof.RefRun
import proofs.«123234_j84868553769176_2_alg».proof.Proof.Route

noncomputable section

namespace Cert.ReferenceIdeal.RefRead

open Cert.ReferenceIdeal Cert.ReferenceIdeal.Gen Cert.ReferenceIdeal.RefRun Idealize.ShloMosaic Idealize.ShloMosaic.TcCoe Idealize.SL.Sem
open Idealize.ShloMosaic.StableHlo

variable {F : FTy → Type} [FloatOps F]
variable (V : Valuation τ sig (Elt F))

-- the sort, the gathers and the scatters are searches and folds over full-size arrays: compared, never evaluated
attribute [local irreducible] Host.sort2 Host.gather Host.scatter Host.reduceWindow

/-- The contents after the six routing stretches. -/
abbrev routed : Valuation τ sig (Elt F) :=
  after bucketOps (after whereOps (after slotOps (after cumsumOps (after countOps (after sortOps V)))))

/-- Opens the routing stretches into their literal lists and rewrites each operation's result to its function's value; the
    transport of an outlined function's typed buffers along an equation of types that holds by computation is removed. -/
local macro "read_routed" : tactic =>
  `(tactic| (simp only [routed, sortOps, countOps, cumsumOps, slotOps, whereOps, bucketOps]
             after_results_simp
             try simp only [TRef.toBuf, TRef.ofBuf, cast_eq]))

/-- The contents after two lines run in order: the second line's fold over the first line's. -/
theorem after_concat (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The whole line is the stretches one after the other. -/
theorem after_ops : after ops V = after combineOps (after linearOps (routed V)) := by
  simp only [ops, routed, after_concat, after_nil]

set_option maxHeartbeats 1000000 in
theorem order_eq : (routed V (Proc.devRef .tc main_v0) : S131072.Idx → BitVec 32)
    = Cert.KernelIdeal.Route.order (V (Proc.devRef .tc main_arg3)) := by
  read_routed
  rfl

set_option maxHeartbeats 2000000 in
theorem slot_eq : (routed V (Proc.devRef .tc main_v28) : S131072.Idx → BitVec 32)
    = Cert.KernelIdeal.Route.slot (V (Proc.devRef .tc main_arg3)) := by
  read_routed
  rfl

set_option maxHeartbeats 4000000 in
theorem buckets_eq : (routed V (Proc.devRef .tc main_v45) : S64x3072x512.Idx → F .f32)
    = Cert.KernelIdeal.Route.buckets (V (Proc.devRef .tc main_arg0)) (constant S_ .f32 0x00000000#32)
        (Cert.KernelIdeal.Route.slot (V (Proc.devRef .tc main_arg3))) (Cert.KernelIdeal.Route.order (V (Proc.devRef .tc main_arg3))) := by
  read_routed
  rfl

set_option maxHeartbeats 1000000 in
theorem routed_arg1 : routed V (Proc.devRef .tc main_arg1) = V (Proc.devRef .tc main_arg1) := by read_routed
set_option maxHeartbeats 1000000 in
theorem routed_arg2 : routed V (Proc.devRef .tc main_arg2) = V (Proc.devRef .tc main_arg2) := by read_routed

/-- The per-expert affine map as the reference spells it. -/
def linear (buf : FVec F S64x3072x512 .f32) (w : FVec F S64x512x512 .f32) (b : FVec F S64x512 .f32) : FVec F S64x3072x512 .f32 :=
  addf (Host.dotGeneral dot_S64x3072x512_S64x512x512_S64x3072x512_2_2_1_1_0_0 none buf w)
    (broadcastInDim S64x3072x512 ![0, 1, 2] bcast_S64x1x512_S64x3072x512_0_1_2 (broadcastInDim S64x1x512 ![0, 2] bcast_S64x512_S64x1x512_0_2 b))

/-- The seventh stretch writes `linear` of the buckets, the weights and the biases, and passes the slots and the sorted
    positions through. -/
theorem after_linear (U : Valuation τ sig (Elt F)) :
    after linearOps U (Proc.devRef .tc main_v49)
        = linear (U (Proc.devRef .tc main_v45)) (U (Proc.devRef .tc main_arg1)) (U (Proc.devRef .tc main_arg2))
    ∧ after linearOps U (Proc.devRef .tc main_v28) = U (Proc.devRef .tc main_v28)
    ∧ after linearOps U (Proc.devRef .tc main_v0) = U (Proc.devRef .tc main_v0) := by
  refine ⟨?_, ?_, ?_⟩ <;> simp only [linearOps] <;> after_results_simp
  rfl

set_option maxHeartbeats 2000000 in
/-- The eighth stretch, from ANY contents: `combine` of what `main_v49`, `main_v28` and `main_v0` hold. -/
theorem after_combine (U : Valuation τ sig (Elt F)) :
    after combineOps U (Proc.devRef .tc main_v67)
      = Cert.KernelIdeal.Route.combine (U (Proc.devRef .tc main_v49)) (U (Proc.devRef .tc main_v28)) (U (Proc.devRef .tc main_v0)) := by
  simp only [combineOps]
  after_results_simp
  rfl

/-- The reference's result: `combine` of `linear` of the buckets, over the slots and the sorted positions. -/
theorem result_eq :
    after ops V (Proc.devRef .tc main_v67)
      = Cert.KernelIdeal.Route.combine
          (linear (Cert.KernelIdeal.Route.buckets (V (Proc.devRef .tc main_arg0)) (constant S_ .f32 0x00000000#32)
              (Cert.KernelIdeal.Route.slot (V (Proc.devRef .tc main_arg3))) (Cert.KernelIdeal.Route.order (V (Proc.devRef .tc main_arg3))))
            (V (Proc.devRef .tc main_arg1)) (V (Proc.devRef .tc main_arg2)))
          (Cert.KernelIdeal.Route.slot (V (Proc.devRef .tc main_arg3))) (Cert.KernelIdeal.Route.order (V (Proc.devRef .tc main_arg3))) := by
  rw [after_ops, after_combine, (after_linear (routed V)).1, (after_linear (routed V)).2.1, (after_linear (routed V)).2.2,
    order_eq, slot_eq, buckets_eq, routed_arg1, routed_arg2]

set_option maxHeartbeats 4000000 in
/-- No operation of the line writes an argument. -/
theorem args_kept :
    after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2)
    ∧ after ops V (Proc.devRef .tc main_arg3) = V (Proc.devRef .tc main_arg3) := by
  refine ⟨?_, ?_, ?_, ?_⟩ <;> rw [after_ops] <;>
    simp only [routed, sortOps, countOps, cumsumOps, slotOps, whereOps, bucketOps, linearOps, combineOps] <;> after_results_simp

end Cert.ReferenceIdeal.RefRead

end
-- ==== Proof.KernelHost.lean ====
/-
  The kernel's program around its region, read as values.

  BEFORE the region the host operations compute, from the four arguments, the sorted positions, the slots, the 64 buckets of
  token rows (the tokens rounded to the narrower float format first, which at the exact instance changes nothing), the
  weights likewise rounded, and the biases given a unit row axis: each is one of the named functions of the arguments.
  AFTER the region 24 operations combine the region's output array with the slots and the sorted positions; they read
  nothing else, so their result is `combine` of those three whatever the rest of the memory holds.
-/
import proofs.«123234_j84868553769176_2_alg».proof.Proof.Gen.KernelIdeal.Frame
import proofs.«123234_j84868553769176_2_alg».proof.Proof.Route
import Idealize.ShloMosaic.Lib.StableHlo.Run
import Idealize.ShloMosaic.Lib.Pipeline.FrameSuffix

noncomputable section

namespace Cert.KernelIdeal.HostSide

open Cert.KernelIdeal Cert.KernelIdeal.Gen Cert.KernelIdeal.Route Idealize.ShloMosaic Idealize.ShloMosaic.TcCoe Idealize.SL.Sem
open Idealize.ShloMosaic.StableHlo

variable {F : FTy → Type} [FloatOps F]
variable (m : (ℓ : Loc nD τ sig) → Buf (Elt F) ℓ) (c : Dev nD)

/-- Reads a buffer as the region finds it: the fold over the six stretches of host operations before the region is
    opened into its literal list and each operation's result rewritten to its function's value, the buffers it does
    not write passed through; an outlined function's buffers are typed references, whose transport along an equation of
    types that holds by computation is the identity and is removed. What is left is a composition of pure functions
    of the launch contents. -/
local macro "read_before_region" : tactic =>
  `(tactic| (dsimp only [Gen.V, Gen.V0]
             simp only [Gen.hostOps0, Gen.hostOps0_1, Gen.hostOps0_2, Gen.hostOps0_3, Gen.hostOps0_4, Gen.hostOps0_5,
               List.flatten_cons, List.flatten_nil, List.append_nil, List.cons_append, List.nil_append]
             after_results_simp
             try simp only [TRef.toBuf, TRef.ofBuf, cast_eq]))

-- the sort, the gathers and the scatters are searches and folds over 131072 entries: compared, never evaluated
attribute [local irreducible] Host.sort2 Host.gather Host.scatter Host.reduceWindow

set_option maxHeartbeats 1000000 in
/-- The region finds the sorted positions in `main_v0`. -/
theorem order_eq : (V m c main_v0 : S131072.Idx → BitVec 32) = order (m ((c.tc : Thread nD τ).loc main_arg3)) := by
  read_before_region
  rfl

set_option maxHeartbeats 2000000 in
/-- The region finds the slots in `main_v28`. -/
theorem slot_eq : (V m c main_v28 : S131072.Idx → BitVec 32) = slot (m ((c.tc : Thread nD τ).loc main_arg3)) := by
  read_before_region
  rfl

set_option maxHeartbeats 4000000 in
/-- Window 0's array: the buckets of the rounded tokens over a zero of the narrow format. -/
theorem buckets_eq : (V m c main_v46 : S64x3072x512.Idx → F .bf16)
    = buckets (truncf .bf16 (m ((c.tc : Thread nD τ).loc main_arg0)) bitsLt_bf16_f32) (constant S_ .bf16 0x0000#16)
        (slot (m ((c.tc : Thread nD τ).loc main_arg3))) (order (m ((c.tc : Thread nD τ).loc main_arg3))) := by
  read_before_region
  rfl

/-- Window 1's array: the weights rounded. -/
theorem weights_eq : (V m c main_v47 : S64x512x512.Idx → F .bf16) = truncf .bf16 (m ((c.tc : Thread nD τ).loc main_arg1)) bitsLt_bf16_f32 := by
  read_before_region

/-- Window 2's array: the biases with a unit row axis. -/
theorem bias_eq : (V m c main_v48 : S64x1x512.Idx → F .f32) = shapeCast S64x1x512 (m ((c.tc : Thread nD τ).loc main_arg2)) shapeCasts_S64x512_S64x1x512 := by
  read_before_region
  rfl

set_option maxHeartbeats 2000000 in
/-- The operations after the region, from ANY contents `W`: `combine` of the region's output array, the slots and the
    sorted positions as `W` holds them. -/
theorem after_region (W : Valuation τ sig (Elt F)) :
    after hostOps1 W (Proc.devRef .tc main_v67)
      = combine (W (Proc.devRef .tc main_v49)) (W (Proc.devRef .tc main_v28)) (W (Proc.devRef .tc main_v0)) := by
  simp only [Gen.hostOps1]
  after_results_simp
  try simp only [TRef.toBuf, TRef.ofBuf, cast_eq]
  rfl

end Cert.KernelIdeal.HostSide

end
-- ==== Proof.Spec.lean ====
/-
  The mathematics both programs compute between the routing and the combine, stated once over literal shapes.

  After the tokens have been routed into per-expert buckets, expert `e` applies its own affine map to every row
  of its bucket: with `buf : [64, 3072, 512]` the bucketed tokens, `w : [64, 512, 512]` the experts' weight
  matrices (output feature first) and `b : [64, 1, 512]` their biases,

      y[e, c, o] = (∑ k < 512, buf[e, c, k] · w[e, o, k]) + b[e, 0, o]

  on the extended reals. The sum is over one axis of a finite index type, so its value does not depend on the order or
  the grouping in which a program accumulates it, and no entry is required to be finite.
-/
import Idealize.ShloMosaic.PureOps.Ideal
import Idealize.ShloMosaic.Lib.ValueIdx

noncomputable section

open scoped BigOperators

namespace Cert.Spec

open Idealize.ShloMosaic Idealize.ShloMosaic.ValueIdx

/-- The bucketed tokens' shape, the weights', the biases' (kept with a unit row axis), and the result's. -/
abbrev SBuf : Shape := ⟨3, ![64, 3072, 512]⟩
abbrev SW : Shape := ⟨3, ![64, 512, 512]⟩
abbrev SB : Shape := ⟨3, ![64, 1, 512]⟩

/-- Entry `(e, c, o)` of the per-expert affine map: row `c` of expert `e`'s bucket against row `o` of its weight
    matrix, plus the expert's bias at `o`. -/
def expertLinearAt (buf : SBuf.Idx → EReal) (w : SW.Idx → EReal) (b : SB.Idx → EReal)
    (e : Fin 64) (c : Fin 3072) (o : Fin 512) : EReal :=
  (∑ k : Fin 512, buf (ix3 e c k) * w (ix3 e o k)) + b (ix3 e (0 : Fin 1) o)

/-- The whole result array: `expertLinearAt` at the index's three coordinates. -/
def expertLinear (buf : SBuf.Idx → EReal) (w : SW.Idx → EReal) (b : SB.Idx → EReal) : SBuf.Idx → EReal :=
  fun j => expertLinearAt buf w b (j 0) (j 1) (j 2)

theorem expertLinear_ix3 (buf : SBuf.Idx → EReal) (w : SW.Idx → EReal) (b : SB.Idx → EReal)
    (e : Fin 64) (c : Fin 3072) (o : Fin 512) :
    expertLinear buf w b (ix3 e c o) = expertLinearAt buf w b e c o := rfl

end Cert.Spec

end
-- ==== Proof.RegionPayload.lean ====
/-
  What the kernel body computes, entry by entry.

  The body loads three whole blocks — 3072 token rows of 512 features, a 512 × 512 weight matrix stored output feature
  first, and one bias row of 512 — each carrying a leading axis of extent one; it drops that axis, multiplies tokens by
  weights contracting the FEATURE axis of both (so output column `o` pairs with ROW `o` of the weights), starting from an
  accumulator of zeros, adds the bias row to every one of the 3072 rows, and puts the unit axis back. Read at the entry
  `(0, r, o)` this is

      (∑ k < 512, tokens[0, r, k] · weights[0, o, k]) + bias[0, 0, o]

  on the extended reals. Only the three inputs' entries with row `r` (tokens), row `o` (weights) and column `o` (bias)
  matter for that entry. The one step that is not pointwise is the product: its sum runs over the contraction's own
  rank-one index type, and is carried to a sum over `Fin 512` along the bijection between such an index and its single
  coordinate.
-/
import proofs.«123234_j84868553769176_2_alg».proof.Proof.Gen.KernelIdeal.Skeleton
import Idealize.ShloMosaic.Lib.ValueIdx
import Idealize.ShloMosaic.Lib.Pipeline.Value
import Idealize.ShloMosaic.PureOps.Ideal.Laws
import Idealize.ShloMosaic.Lib.ValueLayout

noncomputable section
open scoped BigOperators
namespace Cert.KernelIdeal.Region
open Idealize.ShloMosaic Idealize.ShloMosaic.ValueIdx Cert.KernelIdeal Cert.KernelIdeal.Gen

/-- The dimension numbers of the body's one product: both operands are contracted along their second axis. -/
abbrev D := dot_S3072x512_S512x512_S3072x512_1_1_0_0_n_n

/-- The left operand is read at the output's row … -/
theorem lhs_row (i : S3072x512.Idx) (q : D.contr.Idx) : (D.lhsIdx i q 0).val = (i 0).val := by
  unfold DotDims.lhsIdx
  rw [dif_neg (show ¬(0 : Fin S3072x512.rank) ∈ D.lhsBatch by decide), dif_pos (show (0 : Fin S3072x512.rank) ∈ D.lhsNonContracting by decide)]
  rfl
/-- … and at the contraction position; -/
theorem lhs_contr (i : S3072x512.Idx) (q : D.contr.Idx) : (D.lhsIdx i q 1).val = (q ⟨0, by decide⟩).val :=
  D.lhsIdx_val_of_single rfl i q
/-- the right operand is read at the ROW the output's column names (the weights are stored output feature first) … -/
theorem rhs_row (i : S3072x512.Idx) (q : D.contr.Idx) : (D.rhsIdx i q 0).val = (i 1).val := by
  unfold DotDims.rhsIdx
  rw [dif_neg (show ¬(0 : Fin S512x512.rank) ∈ D.rhsBatch by decide), dif_pos (show (0 : Fin S512x512.rank) ∈ D.rhsNonContracting by decide)]
  rfl
/-- … and at the contraction position. -/
theorem rhs_contr (i : S3072x512.Idx) (q : D.contr.Idx) : (D.rhsIdx i q 1).val = (q ⟨0, by decide⟩).val :=
  D.rhsIdx_val_of_single rfl i q

/-- The product into a zero accumulator, at row `r` and column `o`: the sum over the 512 contraction positions `k` of
    the left operand at `(r, k)` times the right operand at `(o, k)`. The contraction index is a rank-1 index; the sum is
    re-indexed through the bijection with its one coordinate. -/
theorem matmul_zero_apply (a : FVec Ideal S3072x512 .bf16) (b : FVec Ideal S512x512 .bf16) (r : Fin 3072) (o : Fin 512) :
    matmul D none a b (constant (F := Ideal) S3072x512 .f32 0x00000000#32) (ix2 r o)
      = ∑ k : Fin 512, a (ix2 r k) * b (ix2 o k) := by
  simp only [matmul]
  rw [Ideal.matmul_constant_zero_apply, ← Equiv.sum_comp (contrEquiv1 D 512 rfl rfl).symm]
  refine Finset.sum_congr rfl fun k _ => ?_
  have hk := contrEquiv1_symm_val D 512 rfl rfl k
  have el : D.lhsIdx (ix2 r o) ((contrEquiv1 D 512 rfl rfl).symm k) = ix2 r k := funext fun a => Fin.ext (by
    match a with
    | ⟨0, _⟩ => exact lhs_row _ _
    | ⟨1, _⟩ => exact (lhs_contr _ _).trans hk)
  have er : D.rhsIdx (ix2 r o) ((contrEquiv1 D 512 rfl rfl).symm k) = ix2 o k := funext fun a => Fin.ext (by
    match a with
    | ⟨0, _⟩ => exact rhs_row _ _
    | ⟨1, _⟩ => exact (rhs_contr _ _).trans hk)
  rw [el, er]

/-- A `[1, 1, 512]` vector cast to `[512]` reads, at `o`, the operand at `(0, 0, o)`: the two indices have the same
    row-major position. -/
theorem bias_cast_apply (x : Vec Ideal S1x1x512 .f32) (o : Fin 512) :
    shapeCast S512 x shapeCasts_S1x1x512_S512 (ix1 o) = x (ix3 (0 : Fin 1) (0 : Fin 1) o) :=
  shapeCast_apply x shapeCasts_S1x1x512_S512 _ _ (by
    rw [Shape.rowMajor_val_three, Shape.rowMajor_val_one]
    show (0 * 1 + 0) * 512 + o.val = o.val
    omega)

/-- THE BODY'S RESULT AT AN ENTRY. With `x0` the tokens' block, `x1` the weights' block and `x2` the bias' block
    (each with a leading unit axis), the stored block holds at `(0, r, o)` the product of row `r` of the tokens with row `o`
    of the weights, summed over the 512 features, plus the bias at `o`: the casts only drop or add the unit axis, the
    bias row is repeated along the 3072 rows, and the accumulator the product starts from is zero. -/
theorem payload_apply (x0 : Vec Ideal S1x3072x512 .bf16) (x1 : Vec Ideal S1x512x512 .bf16) (x2 : Vec Ideal S1x1x512 .f32)
    (r : Fin 3072) (o : Fin 512) :
    k0_pay1 x0 x1 x2 (ix3 (0 : Fin 1) r o)
      = (∑ k : Fin 512, x0 (ix3 (0 : Fin 1) r k) * x1 (ix3 (0 : Fin 1) o k)) + x2 (ix3 (0 : Fin 1) (0 : Fin 1) o) := by
  unfold k0_pay1
  refine (shapeCast_ab_1ab_apply _ _ 0 r o).trans ?_
  refine (addf_apply _ _ _).trans ?_
  refine congrArg₂ (· + ·) ?_ ?_
  · refine (matmul_zero_apply _ _ r o).trans ?_
    refine Finset.sum_congr rfl fun k _ => ?_
    rw [shapeCast_1ab_ab_apply, shapeCast_1ab_ab_apply]
  · refine (broadcastTo_1b_ab_apply _ _ r o).trans ?_
    refine (shapeCast_a_1a_apply _ _ 0 o).trans ?_
    exact bias_cast_apply x2 o

end Cert.KernelIdeal.Region
end
-- ==== Proof.RegionBlocks.lean ====
/-
  Where each block sits in its array.

  The launch walks 64 grid points, one per expert. At point `t` each of the four windows — tokens `[64, 3072, 512]`,
  weights `[64, 512, 512]`, biases `[64, 1, 512]`, result `[64, 3072, 512]` — stages the block whose index is `(t, 0, 0)`
  and whose extents are the array's with the first axis cut to one: slab `t` along the first axis, whole along the other
  two. An entry of a block sits in its array, on each axis, at block index × block extent + its coordinate inside the
  block, so entry `(0, y, z)` of the block at point `t` is entry `(t, y, z)` of the array. The four index maps are
  decided once over the 64 points; the rest is that arithmetic, axis by axis. The arrays themselves are whatever the
  region finds on entry: nothing about how they were computed is used.
-/
import proofs.«123234_j84868553769176_2_alg».proof.Proof.Gen.KernelIdeal.Frame
import Idealize.ShloMosaic.Lib.ValueIdx
import Idealize.ShloMosaic.Lib.Pipeline.Value

noncomputable section
namespace Cert.KernelIdeal.Region
open Idealize.ShloMosaic Idealize.ShloMosaic.TcCoe Idealize.SL.Sem Cert.KernelIdeal Cert.KernelIdeal.Gen
open Idealize.ShloMosaic.ValueIdx

variable (m : (ℓ : Loc nD τ sig) → Buf (Elt Ideal) ℓ)

/-- The body's loads and its store go through the rectangle at offsets `(0, 0, 0)`. -/
theorem hz : (![0, 0, 0] : Fin 3 → Nat) = fun _ => 0 := funext fun a => by fin_cases a <;> rfl

/-- The four index maps at every grid point: block `(t, 0, 0)`. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0) :=
  (by decide +kernel : ∀ t : Fin grid0.N, _)

/-- The tokens' block at point `t` is slab `t` of the tokens' array: entry `(0, r, k)` of the block is entry `(t, r, k)`
    of the array (on each axis, block index × block extent + the coordinate inside the block). -/
theorem tokens_block (c : Dev nD) (t : Fin cfg0.N) (e : Fin 64) (he : e.val = t.val) (r : Fin 3072) (k : Fin 512) :
    (iblk m c 0 t : Vec Ideal S1x3072x512 .bf16) (ix3 (0 : Fin 1) r k)
      = (V m c main_v46 : S64x3072x512.Idx → EReal) (ix3 e r k) := by
  obtain ⟨⟨e0, e1, e2⟩, -⟩ := idx_facts t
  unfold iblk
  rw [View.read_apply]
  refine (cast_eq _ _).trans ?_
  refine congrArg (V m c main_v46 : S64x3072x512.Idx → EReal) ?_
  funext a
  apply Fin.ext
  match a with
  | ⟨0, _⟩ => show win0_0.index t (0 : Fin 3) * 1 + 1 * 0 = e.val; rw [e0, he]; omega
  | ⟨1, _⟩ => show win0_0.index t (1 : Fin 3) * 3072 + 1 * r.val = r.val; rw [e1]; omega
  | ⟨2, _⟩ => show win0_0.index t (2 : Fin 3) * 512 + 1 * k.val = k.val; rw [e2]; omega

/-- The weights' block at point `t` is expert `t`'s matrix. -/
theorem weights_block (c : Dev nD) (t : Fin cfg0.N) (e : Fin 64) (he : e.val = t.val) (o : Fin 512) (k : Fin 512) :
    (iblk m c 1 t : Vec Ideal S1x512x512 .bf16) (ix3 (0 : Fin 1) o k)
      = (V m c main_v47 : S64x512x512.Idx → EReal) (ix3 e o k) := by
  obtain ⟨-, ⟨e0, e1, e2⟩, -⟩ := idx_facts t
  unfold iblk
  rw [View.read_apply]
  refine (cast_eq _ _).trans ?_
  refine congrArg (V m c main_v47 : S64x512x512.Idx → EReal) ?_
  funext a
  apply Fin.ext
  match a with
  | ⟨0, _⟩ => show win0_1.index t (0 : Fin 3) * 1 + 1 * 0 = e.val; rw [e0, he]; omega
  | ⟨1, _⟩ => show win0_1.index t (1 : Fin 3) * 512 + 1 * o.val = o.val; rw [e1]; omega
  | ⟨2, _⟩ => show win0_1.index t (2 : Fin 3) * 512 + 1 * k.val = k.val; rw [e2]; omega

/-- The bias' block at point `t` is expert `t`'s bias row. -/
theorem bias_block (c : Dev nD) (t : Fin cfg0.N) (e : Fin 64) (he : e.val = t.val) (o : Fin 512) :
    (iblk m c 2 t : Vec Ideal S1x1x512 .f32) (ix3 (0 : Fin 1) (0 : Fin 1) o)
      = (V m c main_v48 : S64x1x512.Idx → EReal) (ix3 e (0 : Fin 1) o) := by
  obtain ⟨-, -, ⟨e0, e1, e2⟩, -⟩ := idx_facts t
  unfold iblk
  rw [View.read_apply]
  refine (cast_eq _ _).trans ?_
  refine congrArg (V m c main_v48 : S64x1x512.Idx → EReal) ?_
  funext a
  apply Fin.ext
  match a with
  | ⟨0, _⟩ => show win0_2.index t (0 : Fin 3) * 1 + 1 * 0 = e.val; rw [e0, he]; omega
  | ⟨1, _⟩ => show win0_2.index t (1 : Fin 3) * 1 + 1 * 0 = 0; rw [e1]
  | ⟨2, _⟩ => show win0_2.index t (2 : Fin 3) * 512 + 1 * o.val = o.val; rw [e2]; omega

/-- Entry `(0, r, o)` of the output's block at point `t` sits in the output array at `(t, r, o)`. -/
theorem out_block_emb (t : Fin cfg0.N) (e : Fin 64) (he : e.val = t.val) (r : Fin 3072) (o : Fin 512) :
    (((cfg0.win 3).blk t).view.emb (ix3 (0 : Fin 1) r o) : S64x3072x512.Idx) = ix3 e r o := by
  obtain ⟨-, -, -, ⟨e0, e1, e2⟩⟩ := idx_facts t
  funext a
  apply Fin.ext
  match a with
  | ⟨0, _⟩ => show win0_3.index t (0 : Fin 3) * 1 + 1 * 0 = e.val; rw [e0, he]; omega
  | ⟨1, _⟩ => show win0_3.index t (1 : Fin 3) * 3072 + 1 * r.val = r.val; rw [e1]; omega
  | ⟨2, _⟩ => show win0_3.index t (2 : Fin 3) * 512 + 1 * o.val = o.val; rw [e2]; omega

end Cert.KernelIdeal.Region
end
-- ==== Proof.RegionValue.lean ====
/-
  What the region leaves in its output array.

  One launch over 64 grid points, one per expert `e`: the point loads slab `e` of the tokens `[64, 3072, 512]`, of the
  weights `[64, 512, 512]` (output feature first) and of the biases `[64, 1, 512]`, and stores slab `e` of the result
  `[64, 3072, 512]`. The body's arithmetic at an entry is in the payload module; where a block sits in its array is in
  the blocks module. Here the two are put together: the slab point `t` writes back is slab `t` of ONE function of the
  three whole input arrays,

      y[e, r, o] = (∑ k < 512, tokens[e, r, k] · weights[e, o, k]) + bias[e, 0, o],

  and since every entry `(e, r, o)` of the result lies in the slab of the point `t = e`, and every point writes its slab
  back, the array after the last point is that function. An output entry depends only on row `r` of expert `e`'s
  tokens, row `o` of its weights and entry `o` of its bias; the sum is a finite sum on the extended reals, re-indexed
  once and never reordered, so no entry needs to be finite.
-/
import proofs.«123234_j84868553769176_2_alg».proof.Proof.Gen.KernelIdeal.Frame
import proofs.«123234_j84868553769176_2_alg».proof.Proof.Spec
import proofs.«123234_j84868553769176_2_alg».proof.Proof.RegionPayload
import proofs.«123234_j84868553769176_2_alg».proof.Proof.RegionBlocks
import Idealize.ShloMosaic.Lib.ValueIdx
import Idealize.ShloMosaic.Lib.Pipeline.Value

noncomputable section
open scoped BigOperators
namespace Cert.KernelIdeal.Region
open Idealize.ShloMosaic Idealize.ShloMosaic.TcCoe Idealize.SL.Sem Cert.KernelIdeal Cert.KernelIdeal.Gen
open Idealize.ShloMosaic.ValueIdx
open Idealize.ShloMosaic.Pipeline (Dat)

variable (m : (ℓ : Loc nD τ sig) → Buf (Elt Ideal) ℓ)

/-- ONE ENTRY OF ONE POINT'S RESULT, over any three blocks that are slab `e` of three arrays `buf`, `w`, `b`: entry
    `(0, r, o)` of the body's result is the per-expert affine map of the arrays at `(e, r, o)`. Only row `r` of the
    tokens' block, row `o` of the weights' block and entry `o` of the bias' block are read. -/
theorem point_value (x0 : Vec Ideal S1x3072x512 .bf16) (x1 : Vec Ideal S1x512x512 .bf16) (x2 : Vec Ideal S1x1x512 .f32)
    (buf : Cert.Spec.SBuf.Idx → EReal) (w : Cert.Spec.SW.Idx → EReal) (b : Cert.Spec.SB.Idx → EReal)
    (e : Fin 64) (r : Fin 3072) (o : Fin 512)
    (h0 : ∀ k : Fin 512, x0 (ix3 (0 : Fin 1) r k) = buf (ix3 e r k))
    (h1 : ∀ k : Fin 512, x1 (ix3 (0 : Fin 1) o k) = w (ix3 e o k))
    (h2 : x2 (ix3 (0 : Fin 1) (0 : Fin 1) o) = b (ix3 e (0 : Fin 1) o)) :
    k0_pay1 x0 x1 x2 (ix3 (0 : Fin 1) r o) = Cert.Spec.expertLinear buf w b (ix3 e r o) := by
  rw [Cert.Spec.expertLinear_ix3, payload_apply]
  unfold Cert.Spec.expertLinearAt
  rw [h2]
  exact congrArg (· + b (ix3 e (0 : Fin 1) o)) (Finset.sum_congr rfl fun k _ => by rw [h0 k, h1 k])

/-- WHAT POINT `t` WRITES BACK is block `t` of the per-expert affine map of the three arrays as the region finds them:
    the body's one store covers its whole buffer, its loads read the three whole blocks, and those are slab `t` of the
    tokens, the weights and the biases. -/
theorem flushed_eq (c : Dev nD) (t : Fin cfg0.N) :
    (dats m 0 c).flushed 3 t = ((cfg0.win 3).blk t).view.read (Elt Ideal)
      (Cert.Spec.expertLinear (V m c main_v46) (V m c main_v47) (V m c main_v48)) := by
  show (cfg0.win 3).cut (grid0.coords t) ((dats m 0 c).after 3 t) = _
  rw [after0_3]
  unfold out0_3
  rw [View.canon_unit_zero hz]
  simp only [View.ld_unit_zero (S := S1x3072x512) hz, View.ld_unit_zero (S := S1x512x512) hz, View.ld_unit_zero (S := S1x1x512) hz]
  have hN : grid0.N = 64 := N_0
  have he : (⟨t.val, hN ▸ t.isLt⟩ : Fin 64).val = t.val := rfl
  generalize (⟨t.val, hN ▸ t.isLt⟩ : Fin 64) = e at he
  refine funext fun (j : S1x3072x512.Idx) => ?_
  obtain ⟨u, r, o, rfl⟩ : ∃ (u : Fin 1) (r : Fin 3072) (o : Fin 512), j = ix3 u r o := ⟨j 0, j 1, j 2, eq_ix3 j⟩
  obtain rfl : u = 0 := Subsingleton.elim _ _
  rw [View.read_apply]
  refine Eq.trans ?_ (cast_eq _ _).symm
  refine Eq.trans ?_ (congrArg (Cert.Spec.expertLinear (V m c main_v46) (V m c main_v47) (V m c main_v48))
    (out_block_emb t e he r o)).symm
  exact point_value (iblk m c 0 t) (iblk m c 1 t) (iblk m c 2 t) (V m c main_v46) (V m c main_v47) (V m c main_v48) e r o
    (fun k => tokens_block m c t e he r k) (fun k => weights_block m c t e he o k) (bias_block m c t e he o)

/-- An index of the output array is in point `t`'s block iff each coordinate is in the block's range on its axis. -/
theorem mem_block (t : Fin cfg0.N) (i : S64x3072x512.Idx) :
    i ∈ ((cfg0.win 3).blk t).view.set ↔ ∀ a : Fin 3, win0_3.index t a * S1x3072x512.size a ≤ (i a).val
      ∧ (i a).val < win0_3.index t a * S1x3072x512.size a + S1x3072x512.size a := by
  show i ∈ ((View.whole main_v49).slice (win0_3.rect t)).set ↔ _
  rw [View.set_slice_whole, Rect.mem_set_unit]
  exact Iff.rfl

/-- EVERY ENTRY IS WRITTEN: the entry `(e, r, o)` of the output array lies in the block of the point `t = e` (a block is
    one whole slab along the first axis), and every point writes its block back. -/
theorem covered (i : S64x3072x512.Idx) :
    ∃ t : Fin cfg0.N, (cfg0.win 3).flush t = true ∧ i ∈ ((cfg0.win 3).blk t).view.set := by
  have h0 : (i 0).val < 64 := (i 0).isLt
  have h1 : (i 1).val < 3072 := (i 1).isLt
  have h2 : (i 2).val < 512 := (i 2).isLt
  obtain ⟨t, ht⟩ : ∃ t : Fin cfg0.N, t.val = (i 0).val := ⟨⟨(i 0).val, Nat.lt_of_lt_of_eq h0 N_0.symm⟩, rfl⟩
  obtain ⟨-, -, -, ⟨e0, e1, e2⟩⟩ := idx_facts t
  refine ⟨t, flush0_3 t, ?_⟩
  rw [mem_block]
  intro a
  match a with
  | ⟨0, _⟩ =>
    show win0_3.index t (0 : Fin 3) * 1 ≤ (i 0).val ∧ (i 0).val < win0_3.index t (0 : Fin 3) * 1 + 1
    rw [e0, ht]; omega
  | ⟨1, _⟩ =>
    show win0_3.index t (1 : Fin 3) * 3072 ≤ (i 1).val ∧ (i 1).val < win0_3.index t (1 : Fin 3) * 3072 + 3072
    rw [e1]; omega
  | ⟨2, _⟩ =>
    show win0_3.index t (2 : Fin 3) * 512 ≤ (i 2).val ∧ (i 2).val < win0_3.index t (2 : Fin 3) * 512 + 512
    rw [e2]; omega

/-- THE OUTPUT ARRAY AFTER ALL 64 POINTS is the per-expert affine map of the three input arrays as the region finds
    them: at `(e, r, o)`, the sum over the 512 features `k` of tokens `[e, r, k]` times weights `[e, o, k]`, plus bias
    `[e, 0, o]`. Each point writes one block of that function, and the blocks cover the array. -/
theorem final3 (m : (ℓ : Loc nD τ sig) → Buf (Elt Ideal) ℓ) (c : Dev nD) :
    (dats m 0 c).arrAt 3 cfg0.N
      = Cert.Spec.expertLinear (V m c main_v46) (V m c main_v47) (V m c main_v48) :=
  (dats m 0 c).arrAt_eq_of_cover 3 (Cert.Spec.expertLinear (V m c main_v46) (V m c main_v47) (V m c main_v48))
    (fun t _ => flushed_eq m c t) covered

end Cert.KernelIdeal.Region
end
-- ==== Proof.RefLinearValue.lean ====
/-
  The reference's per-expert affine map, read at an entry.

  The reference multiplies the bucketed tokens `[64, 3072, 512]` by the experts' weights `[64, 512, 512]` (output feature
  first) in ONE batched product: the expert axis of both operands is a batch axis, the feature axis of both is
  contracted, so the result's entry `(e, r, o)` pairs row `r` of expert `e`'s tokens with row `o` of expert `e`'s weights.
  The biases `[64, 512]` are then repeated along a new middle axis, first of extent one, then of extent 3072, and added:
  at `(e, r, o)` both repetitions read the bias at `(e, o)`. So the reference's result at `(e, r, o)` is

      (∑ k < 512, tokens[e, r, k] · weights[e, o, k]) + bias[e, o]

  on the extended reals. The product's sum runs over the contraction's own rank-one index type and is carried to a sum
  over `Fin 512` along the bijection between such an index and its single coordinate; nothing is reordered.
-/
import proofs.«123234_j84868553769176_2_alg».proof.Proof.Gen.ReferenceIdeal
import Idealize.ShloMosaic.Lib.ValueIdx
import Idealize.ShloMosaic.Lib.Pipeline.Value
import Idealize.ShloMosaic.PureOps.Ideal.Laws

noncomputable section
open scoped BigOperators
namespace Cert.ReferenceIdeal.LinearValue
open Idealize.ShloMosaic Idealize.ShloMosaic.ValueIdx Cert.ReferenceIdeal Cert.ReferenceIdeal.Gen

/-- The dimension numbers of the batched product: batch axis 0 of both operands, free axis 1 of both, contracted axis 2
    of both. -/
abbrev D := dot_S64x3072x512_S64x512x512_S64x3072x512_2_2_1_1_0_0

/-- The left operand is read at the output's expert … -/
theorem lhs_batch (i : S64x3072x512.Idx) (q : D.contr.Idx) : (D.lhsIdx i q 0).val = (i 0).val := by
  unfold DotDims.lhsIdx
  rw [dif_pos (show (0 : Fin S64x3072x512.rank) ∈ D.lhsBatch by decide)]
  rfl
/-- … at the output's row … -/
theorem lhs_row (i : S64x3072x512.Idx) (q : D.contr.Idx) : (D.lhsIdx i q 1).val = (i 1).val := by
  unfold DotDims.lhsIdx
  rw [dif_neg (show ¬(1 : Fin S64x3072x512.rank) ∈ D.lhsBatch by decide), dif_pos (show (1 : Fin S64x3072x512.rank) ∈ D.lhsNonContracting by decide)]
  rfl
/-- … and at the contraction position; -/
theorem lhs_contr (i : S64x3072x512.Idx) (q : D.contr.Idx) : (D.lhsIdx i q 2).val = (q ⟨0, by decide⟩).val :=
  D.lhsIdx_val_of_single rfl i q
/-- the right operand is read at the output's expert … -/
theorem rhs_batch (i : S64x3072x512.Idx) (q : D.contr.Idx) : (D.rhsIdx i q 0).val = (i 0).val := by
  unfold DotDims.rhsIdx
  rw [dif_pos (show (0 : Fin S64x512x512.rank) ∈ D.rhsBatch by decide)]
  rfl
/-- … at the ROW the output's column names … -/
theorem rhs_row (i : S64x3072x512.Idx) (q : D.contr.Idx) : (D.rhsIdx i q 1).val = (i 2).val := by
  unfold DotDims.rhsIdx
  rw [dif_neg (show ¬(1 : Fin S64x512x512.rank) ∈ D.rhsBatch by decide), dif_pos (show (1 : Fin S64x512x512.rank) ∈ D.rhsNonContracting by decide)]
  rfl
/-- … and at the contraction position. -/
theorem rhs_contr (i : S64x3072x512.Idx) (q : D.contr.Idx) : (D.rhsIdx i q 2).val = (q ⟨0, by decide⟩).val :=
  D.rhsIdx_val_of_single rfl i q

/-- The batched product at `(e, r, o)`: the sum over the 512 contraction positions `k` of the tokens at `(e, r, k)` times
    the weights at `(e, o, k)`. -/
theorem dot_apply (buf : FVec Ideal S64x3072x512 .f32) (w : FVec Ideal S64x512x512 .f32)
    (e : Fin 64) (r : Fin 3072) (o : Fin 512) :
    Host.dotGeneral D none buf w (ix3 e r o) = ∑ k : Fin 512, buf (ix3 e r k) * w (ix3 e o k) := by
  simp only [Host.dotGeneral]
  rw [Ideal.dotGeneral_apply, ← Equiv.sum_comp (contrEquiv1 D 512 rfl rfl).symm]
  refine Finset.sum_congr rfl fun k _ => ?_
  have hk := contrEquiv1_symm_val D 512 rfl rfl k
  have el : D.lhsIdx (ix3 e r o) ((contrEquiv1 D 512 rfl rfl).symm k) = ix3 e r k := funext fun a => Fin.ext (by
    match a with
    | ⟨0, _⟩ => exact lhs_batch _ _
    | ⟨1, _⟩ => exact lhs_row _ _
    | ⟨2, _⟩ => exact (lhs_contr _ _).trans hk)
  have er : D.rhsIdx (ix3 e r o) ((contrEquiv1 D 512 rfl rfl).symm k) = ix3 e o k := funext fun a => Fin.ext (by
    match a with
    | ⟨0, _⟩ => exact rhs_batch _ _
    | ⟨1, _⟩ => exact rhs_row _ _
    | ⟨2, _⟩ => exact (rhs_contr _ _).trans hk)
  rw [el, er]

/-- The biases given a middle axis of extent one read, at `(e, u, o)`, the bias at `(e, o)`. -/
theorem bias_keepdims_apply (b : FVec Ideal S64x512 .f32) (e : Fin 64) (u : Fin 1) (o : Fin 512) :
    broadcastInDim S64x1x512 ![0, 2] bcast_S64x512_S64x1x512_0_2 b (ix3 e u o) = b (ix2 e o) :=
  broadcastInDim_apply ![0, 2] bcast_S64x512_S64x1x512_0_2 b (ix3 e u o) (ix2 e o) fun a => by
    match a with
    | ⟨0, _⟩ => show e.val = if (64 : Nat) = 1 then 0 else e.val; rw [if_neg (by decide)]
    | ⟨1, _⟩ => show o.val = if (512 : Nat) = 1 then 0 else o.val; rw [if_neg (by decide)]

/-- That row repeated along the 3072 token rows reads, at `(e, r, o)`, its entry `(e, 0, o)`. -/
theorem bias_rows_apply (x : FVec Ideal S64x1x512 .f32) (e : Fin 64) (r : Fin 3072) (o : Fin 512) :
    broadcastInDim S64x3072x512 ![0, 1, 2] bcast_S64x1x512_S64x3072x512_0_1_2 x (ix3 e r o) = x (ix3 e (0 : Fin 1) o) :=
  broadcastInDim_apply ![0, 1, 2] bcast_S64x1x512_S64x3072x512_0_1_2 x (ix3 e r o) (ix3 e (0 : Fin 1) o) fun a => by
    match a with
    | ⟨0, _⟩ => show e.val = if (64 : Nat) = 1 then 0 else e.val; rw [if_neg (by decide)]
    | ⟨1, _⟩ => show (0 : Nat) = if (1 : Nat) = 1 then 0 else r.val; rw [if_pos rfl]
    | ⟨2, _⟩ => show o.val = if (512 : Nat) = 1 then 0 else o.val; rw [if_neg (by decide)]

/-- THE REFERENCE'S RESULT AT AN ENTRY: the batched product plus the twice-repeated biases, at `(e, r, o)`, is the sum
    over the 512 features `k` of tokens `[e, r, k]` times weights `[e, o, k]`, plus bias `[e, o]`. -/
theorem linear_apply (buf : FVec Ideal S64x3072x512 .f32) (w : FVec Ideal S64x512x512 .f32) (b : FVec Ideal S64x512 .f32)
    (e : Fin 64) (r : Fin 3072) (o : Fin 512) :
    addf (Host.dotGeneral dot_S64x3072x512_S64x512x512_S64x3072x512_2_2_1_1_0_0 none buf w)
        (broadcastInDim S64x3072x512 ![0, 1, 2] bcast_S64x1x512_S64x3072x512_0_1_2 (broadcastInDim S64x1x512 ![0, 2] bcast_S64x512_S64x1x512_0_2 b))
        (ix3 e r o)
      = (∑ k : Fin 512, buf (ix3 e r k) * w (ix3 e o k)) + b (ix2 e o) := by
  refine (addf_apply _ _ _).trans ?_
  refine congrArg₂ (· + ·) (dot_apply buf w e r o) ?_
  exact (bias_rows_apply _ e r o).trans (bias_keepdims_apply b e 0 o)

end Cert.ReferenceIdeal.LinearValue
end
-- ==== Proof.BiasCastValue.lean ====
/-
  The biases given a middle axis of extent one, read at an entry.

  Before its launch the kernel's program recasts the biases `[64, 512]` as `[64, 1, 512]`. A recast keeps every entry at
  its row-major position: entry `(e, 0, o)` of the result is at position `(e · 1 + 0) · 512 + o = e · 512 + o`, the position
  of entry `(e, o)` of the operand. So the recast biases at `(e, 0, o)` are the biases at `(e, o)`.
-/
import proofs.«123234_j84868553769176_2_alg».proof.Proof.Gen.KernelIdeal
import Idealize.ShloMosaic.Lib.ValueIdx
import Idealize.ShloMosaic.Lib.Pipeline.Value

noncomputable section
namespace Cert.KernelIdeal.BiasCast
open Idealize.ShloMosaic Idealize.ShloMosaic.ValueIdx Cert.KernelIdeal Cert.KernelIdeal.Gen

/-- The recast biases at `(e, 0, o)` are the biases at `(e, o)`: the two indices have the same row-major position. -/
theorem bias_cast_apply (b : FVec Ideal S64x512 .f32) (e : Fin 64) (o : Fin 512) :
    shapeCast S64x1x512 b shapeCasts_S64x512_S64x1x512 (ix3 e (0 : Fin 1) o) = b (ix2 e o) :=
  shapeCast_apply b shapeCasts_S64x512_S64x1x512 _ _ (by
    rw [Shape.rowMajor_val_two, Shape.rowMajor_val_three]
    show e.val * 512 + o.val = (e.val * 1 + 0) * 512 + o.val
    omega)

end Cert.KernelIdeal.BiasCast
end
-- ==== Proof.Bridge.lean ====
/-
  Where the two programs meet.

  At the exact instance a change of float format is the identity and both formats' zero words denote 0, so the kernel's
  buckets (of the rounded tokens, over the narrow zero) ARE the reference's buckets (of the tokens, over the wide zero),
  and the rounded weights are the weights. What the region leaves in its output array — at (e, r, o) the sum over the 512
  features k of bucket[e, r, k] · weight[e, o, k], plus bias[e, 0, o] — is then, entry by entry, the reference's batched
  product contracting the feature axis plus its biases broadcast along the rows: the same finite sum, term for term, so
  nothing is reordered and no entry needs to be finite. Around that middle both programs apply the same routing and the
  same combine to the same arguments.
-/
import proofs.«123234_j84868553769176_2_alg».proof.Proof.KernelHost
import proofs.«123234_j84868553769176_2_alg».proof.Proof.RegionValue
import proofs.«123234_j84868553769176_2_alg».proof.Proof.RefRead
import proofs.«123234_j84868553769176_2_alg».proof.Proof.RefLinearValue
import proofs.«123234_j84868553769176_2_alg».proof.Proof.BiasCastValue
import proofs.«123234_j84868553769176_2_alg».proof.Proof.Spec
import proofs.«123234_j84868553769176_2_alg».proof.Proof.Route
import Idealize.ShloMosaic.PureOps.Ideal.Laws
import Idealize.ShloMosaic.Lib.ValueIdx
import Idealize.ShloMosaic.Lib.Pipeline.FrameSuffix

noncomputable section

open scoped BigOperators

namespace Cert.Bridge

open Idealize.ShloMosaic Idealize.ShloMosaic.TcCoe Idealize.SL.Sem Idealize.ShloMosaic.ValueIdx
open Cert.KernelIdeal Cert.KernelIdeal.Gen Cert.KernelIdeal.Route

-- the gathers and scatters are searches over full-size arrays: compared, never evaluated
attribute [local irreducible] Host.sort2 Host.gather Host.scatter Host.reduceWindow

/-- The narrow format's zero word denotes 0. -/
theorem zero_bf16 : Ideal.ofBits .bf16 0x0000#16 = 0 := by simp [Ideal.ofBits, Ideal.ieee]

/-- The two formats' zero constants are one function. -/
theorem zero_consts : (constant (F := Ideal) S_ .bf16 0x0000#16 : S_.Idx → EReal) = constant (F := Ideal) S_ .f32 0x00000000#32 :=
  funext fun _ => zero_bf16.trans Ideal.ofBits_zero_f32.symm

/-- The buckets of the rounded tokens over the narrow zero are the buckets of the tokens over the wide zero. -/
theorem buckets_formats (x : FVec Ideal S131072x512 .f32) (s o : IVec S131072 32) :
    (buckets (F := Ideal) (φ := .bf16) (truncf .bf16 x bitsLt_bf16_f32) (constant S_ .bf16 0x0000#16) s o : S64x3072x512.Idx → EReal)
      = buckets (F := Ideal) (φ := .f32) x (constant S_ .f32 0x00000000#32) s o := by
  show buckets (F := Ideal) (φ := .f32) x (constant (F := Ideal) S_ .bf16 0x0000#16 : S_.Idx → EReal) s o = _
  rw [zero_consts]

/-- THE MIDDLE: the reference's batched product plus broadcast biases, on the reference's buckets, is the per-expert
    affine map of the kernel's buckets, rounded weights and reshaped biases. Entry (e, r, o) of either is
    (∑ k < 512, bucket[e, r, k] · weight[e, o, k]) + bias[e, o]. -/
theorem mid_eq (x : FVec Ideal S131072x512 .f32) (w : FVec Ideal S64x512x512 .f32) (b : FVec Ideal S64x512 .f32)
    (s o : IVec S131072 32) :
    Cert.ReferenceIdeal.RefRead.linear (F := Ideal) (buckets (F := Ideal) (φ := .f32) x (constant S_ .f32 0x00000000#32) s o) w b
      = Cert.Spec.expertLinear
          (buckets (F := Ideal) (φ := .bf16) (truncf .bf16 x bitsLt_bf16_f32) (constant S_ .bf16 0x0000#16) s o)
          (truncf .bf16 w bitsLt_bf16_f32) (shapeCast S64x1x512 b shapeCasts_S64x512_S64x1x512) := by
  rw [buckets_formats]
  generalize buckets (F := Ideal) (φ := .f32) x (constant S_ .f32 0x00000000#32) s o = buf
  funext j
  obtain ⟨e, r, c, rfl⟩ : ∃ (e : Fin 64) (r : Fin 3072) (c : Fin 512), j = ix3 e r c := ⟨j 0, j 1, j 2, eq_ix3 j⟩
  rw [Cert.Spec.expertLinear_ix3]
  unfold Cert.Spec.expertLinearAt
  refine (Cert.ReferenceIdeal.LinearValue.linear_apply buf w b e r c).trans ?_
  exact congrArg ((∑ k : Fin 512, buf (ix3 e r k) * w (ix3 e c k)) + ·) (Cert.KernelIdeal.BiasCast.bias_cast_apply b e c).symm

/-- THE KERNEL'S RESULT as a function of its arguments: the operations after the region combine the region's output
    array — the per-expert affine map of what the region found — with the slots and the sorted positions. -/
theorem kernel_result (m : (ℓ : Loc nD τ sig) → Buf (Elt Ideal) ℓ) (c : Dev nD) :
    (Pipeline.afterTail₀ cfgs (dats m) 0 (V0 m) [hostOps1] c main_v67 : S131072x512.Idx → EReal)
      = combine (F := Ideal)
          (Cert.Spec.expertLinear
            (buckets (F := Ideal) (φ := .bf16) (truncf (F := Ideal) .bf16 (m ((c.tc : Thread nD τ).loc main_arg0) : FVec Ideal S131072x512 .f32) bitsLt_bf16_f32) (constant S_ .bf16 0x0000#16)
              (slot (m ((c.tc : Thread nD τ).loc main_arg3) : IVec S131072 32)) (order (m ((c.tc : Thread nD τ).loc main_arg3) : IVec S131072 32)))
            (truncf (F := Ideal) .bf16 (m ((c.tc : Thread nD τ).loc main_arg1) : FVec Ideal S64x512x512 .f32) bitsLt_bf16_f32)
            (shapeCast (α := EReal) S64x1x512 (m ((c.tc : Thread nD τ).loc main_arg2) : FVec Ideal S64x512 .f32) shapeCasts_S64x512_S64x1x512))
          (slot (m ((c.tc : Thread nD τ).loc main_arg3) : IVec S131072 32)) (order (m ((c.tc : Thread nD τ).loc main_arg3) : IVec S131072 32)) := by
  unfold Pipeline.afterTail₀
  show StableHlo.after hostOps1 _ (Proc.devRef .tc main_v67) = _
  rw [Cert.KernelIdeal.HostSide.after_region]
  have h49 := Pipeline.withArrays_arr spec0 launch0.win.arr_inj c (V0 m c) (fun w => (dats m 0 c).arrAt w cfg0.N) 3
  have h28 := Pipeline.withArrays_of_ne spec0 c (V0 m c) (fun w => (dats m 0 c).arrAt w cfg0.N) main_v28
    (by exact (by decide : ∀ w, Pipeline.arrRef spec0 w ≠ main_v28))
  have h0 := Pipeline.withArrays_of_ne spec0 c (V0 m c) (fun w => (dats m 0 c).arrAt w cfg0.N) main_v0
    (by exact (by decide : ∀ w, Pipeline.arrRef spec0 w ≠ main_v0))
  refine congr (congr (congrArg (combine (F := Ideal)) ?_) ?_) ?_
  · refine (h49.trans (Cert.KernelIdeal.Region.final3 m c)).trans ?_
    rw [Cert.KernelIdeal.HostSide.buckets_eq, Cert.KernelIdeal.HostSide.weights_eq, Cert.KernelIdeal.HostSide.bias_eq]
  · exact h28.trans (Cert.KernelIdeal.HostSide.slot_eq m c)
  · exact h0.trans (Cert.KernelIdeal.HostSide.order_eq m c)

end Cert.Bridge

end
-- ==== Proof.lean ====
/-
  A grouped per-expert linear layer, y[t] = weight[e(t)] · x[t] + bias[e(t)], computed by routing the 131072 tokens into
  64 buckets of capacity 3072 (tokens past an expert's capacity get a zero result), applying each expert's affine map to
  its bucket, and combining the results back into token order.

  The kernel's program and the reference perform the SAME routing and the SAME combine, operation for operation; they
  differ only in the middle. The kernel rounds tokens and weights to a narrower float format and runs one launch over
  the 64 experts, each point multiplying its bucket by its weight matrix (contracting the feature axis, into a zero
  accumulator) and adding its bias along the rows; the reference takes one batched product over all experts and adds the
  broadcast biases. On the extended reals a change of format is the identity and both are, at entry (e, r, o), the sum
  over the 512 features k of bucket[e, r, k] · weight[e, o, k], plus bias[e, o] — the same finite sum term for term, so
  the equality holds for all inputs, infinite entries included, and the precondition is never opened.

  The frames of the two kernel programs are the generated ones; the reference has no launch, and its frame is its run
  (a straight line of host operations) with the result dropped. The idealization rewrote no operation, so what it
  preserves is nothing to prove.
-/
import proofs.«123234_j84868553769176_2_alg».proof.Defs
import proofs.«123234_j84868553769176_2_alg».proof.Proof.Gen.Kernel
import proofs.«123234_j84868553769176_2_alg».proof.Proof.Gen.Kernel.Frame
import proofs.«123234_j84868553769176_2_alg».proof.Proof.Gen.KernelIdeal
import proofs.«123234_j84868553769176_2_alg».proof.Proof.Gen.KernelIdeal.Frame
import proofs.«123234_j84868553769176_2_alg».proof.Proof.Gen.ReferenceIdeal
import proofs.«123234_j84868553769176_2_alg».proof.Proof.Gen.Pre_finite_inputs
import proofs.«123234_j84868553769176_2_alg».proof.Proof.RefRun
import proofs.«123234_j84868553769176_2_alg».proof.Proof.RefRead
import proofs.«123234_j84868553769176_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference writes none of its arguments: its run, with the result dropped. -/
theorem frame_referenceIdeal : Cert.frame_ReferenceIdeal := fun m ρ _ =>
  (θ_run Cert.ReferenceIdeal.defs _ _).mono
    (fun _ h c => ⟨(h c Cert.ReferenceIdeal.main_arg0).trans (Cert.ReferenceIdeal.RefRead.args_kept _).1,
      (h c Cert.ReferenceIdeal.main_arg1).trans (Cert.ReferenceIdeal.RefRead.args_kept _).2.1,
      (h c Cert.ReferenceIdeal.main_arg2).trans (Cert.ReferenceIdeal.RefRead.args_kept _).2.2.1,
      (h c Cert.ReferenceIdeal.main_arg3).trans (Cert.ReferenceIdeal.RefRead.args_kept _).2.2.2⟩)
    (Cert.ReferenceIdeal.RefRun.run_main (F := Ideal) m ρ)

/-- The idealization rewrote no operation. -/
theorem preserves : Cert.preserves_Kernel_KernelIdeal := trivial

/-- From memories agreeing on the arguments both idealized programs end with the same result: the kernel's is
    `combine` of the per-expert affine map of its buckets, the reference's `combine` of its batched product plus
    biases on its buckets, over the same slots and sorted positions; the middles agree entry by entry. -/
theorem algebraic : Cert.algebraic_KernelIdeal_ReferenceIdeal := by
  intro m ρ m' ρ' _ hagree
  refine ⟨fun c => Pipeline.afterTail₀ Cert.KernelIdeal.cfgs (Cert.KernelIdeal.Gen.dats m) 0 (Cert.KernelIdeal.Gen.V0 m)
      [Cert.KernelIdeal.Gen.hostOps1] c Cert.KernelIdeal.main_v67, ?_, ?_⟩
  · exact (θ_run Cert.KernelIdeal.defs _ _).mono
      (fun _ h c => ⟨(h c).2 Cert.KernelIdeal.main_v67 (Pipeline.mem_restRefs_of Cert.KernelIdeal.main_v67 (by decide) (by decide)),
        ((h c).2 Cert.KernelIdeal.main_arg0 (Pipeline.mem_restRefs_of Cert.KernelIdeal.main_arg0 (by decide) (by decide))).trans
          (Cert.KernelIdeal.Gen.W_main_arg0 m (Cert.KernelIdeal.Gen.dats m) c),
        ((h c).2 Cert.KernelIdeal.main_arg1 (Pipeline.mem_restRefs_of Cert.KernelIdeal.main_arg1 (by decide) (by decide))).trans
          (Cert.KernelIdeal.Gen.W_main_arg1 m (Cert.KernelIdeal.Gen.dats m) c),
        ((h c).2 Cert.KernelIdeal.main_arg2 (Pipeline.mem_restRefs_of Cert.KernelIdeal.main_arg2 (by decide) (by decide))).trans
          (Cert.KernelIdeal.Gen.W_main_arg2 m (Cert.KernelIdeal.Gen.dats m) c),
        ((h c).2 Cert.KernelIdeal.main_arg3 (Pipeline.mem_restRefs_of Cert.KernelIdeal.main_arg3 (by decide) (by decide))).trans
          (Cert.KernelIdeal.Gen.W_main_arg3 m (Cert.KernelIdeal.Gen.dats m) c)⟩)
      (Cert.KernelIdeal.Gen.run_main m ρ)
  · refine (θ_run Cert.ReferenceIdeal.defs _ _).mono (fun _ h c => ⟨?_,
        (h c Cert.ReferenceIdeal.main_arg0).trans (Cert.ReferenceIdeal.RefRead.args_kept _).1,
        (h c Cert.ReferenceIdeal.main_arg1).trans (Cert.ReferenceIdeal.RefRead.args_kept _).2.1,
        (h c Cert.ReferenceIdeal.main_arg2).trans (Cert.ReferenceIdeal.RefRead.args_kept _).2.2.1,
        (h c Cert.ReferenceIdeal.main_arg3).trans (Cert.ReferenceIdeal.RefRead.args_kept _).2.2.2⟩)
      (Cert.ReferenceIdeal.RefRun.run_main (F := Ideal) m' ρ')
    refine (h c Cert.ReferenceIdeal.main_v67).trans ?_
    beta_reduce
    have e0 : StableHlo.launchContents m' c (Proc.devRef .tc Cert.ReferenceIdeal.main_arg0)
        = m ((c.tc : Thread Cert.KernelIdeal.nD Cert.KernelIdeal.τ).loc Cert.KernelIdeal.main_arg0) := (hagree c).1
    have e1 : StableHlo.launchContents m' c (Proc.devRef .tc Cert.ReferenceIdeal.main_arg1)
        = m ((c.tc : Thread Cert.KernelIdeal.nD Cert.KernelIdeal.τ).loc Cert.KernelIdeal.main_arg1) := (hagree c).2.1
    have e2 : StableHlo.launchContents m' c (Proc.devRef .tc Cert.ReferenceIdeal.main_arg2)
        = m ((c.tc : Thread Cert.KernelIdeal.nD Cert.KernelIdeal.τ).loc Cert.KernelIdeal.main_arg2) := (hagree c).2.2.1
    have e3 : StableHlo.launchContents m' c (Proc.devRef .tc Cert.ReferenceIdeal.main_arg3)
        = m ((c.tc : Thread Cert.KernelIdeal.nD Cert.KernelIdeal.τ).loc Cert.KernelIdeal.main_arg3) := (hagree c).2.2.2
    rw [Cert.ReferenceIdeal.RefRead.result_eq, Cert.Bridge.kernel_result, e0, e1, e2, e3, Cert.Bridge.mid_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
